-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x256 .f32) (main_arg10 : FVec F S128 .f32) (main_arg11 : FVec F S10x128 .f32) (main_arg12 : FVec F S10 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S10x128 .f32 := Host.absf main_arg11
  let main_cst_16 : FVec F S_ .f32 := constant S_ .f32 0x7F800000#32
  let main_v45 : FVec F S10x128 .f32 := broadcastInDim S10x128 ![] bcast_S_S10x128 main_cst_16
  let main_v46 : IVec S10x128 1 := cmpf .olt main_v44 main_v45
  let main_c_17 : IVec S_ 1 := constantI S_ 1 1#1
  let main_v47 : IVec S_ 1 := (fun x v => Host.reduce IntOp.andi x v reducesTo_S10x128_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S128x256 .f32) (main_arg10 : FVec F S128 .f32) (main_arg11 : FVec F S10x128 .f32) (main_arg12 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S256x128 .f32) (main_arg4 : FVec F S256 .f32) (main_arg5 : FVec F S256x256 .f32) (main_arg6 : FVec F S256 .f32) (main_arg7 : FVec F S256x256 .f32) (main_arg8 : FVec F S256 .f32) (main_arg9 : FVec F S128x256 .f32) (main_arg10 : FVec F S128 .f32) (main_arg11 : FVec F S10x128 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S128x128 : Shape := ⟨2, ![128, 128]⟩
abbrev S1x128 : Shape := ⟨2, ![1, 128]⟩
abbrev S512x128 : Shape := ⟨2, ![512, 128]⟩
abbrev S512x10 : Shape := ⟨2, ![512, 10]⟩

abbrev nBuf : Space → Nat
  | .hbm => 88
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S128x256, .f32⟩
  | .hbm, ⟨10, _⟩ => ⟨S128, .f32⟩
  | .hbm, ⟨11, _⟩ => ⟨S10x128, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x256, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S_, .f32⟩
  | .hbm, ⟨63, _⟩ => ⟨S512x256, .f32⟩
  | .hbm, ⟨64, _⟩ => ⟨S50000x1, .i32⟩
  | .hbm, ⟨65, _⟩ => ⟨S512x256, .f32⟩
  | .hbm, ⟨66, _⟩ => ⟨S_, .f32⟩
  | .hbm, ⟨67, _⟩ => ⟨S50000, .f32⟩
  | .hbm, ⟨68, _⟩ => ⟨S_, .f32⟩
  | .hbm, ⟨69, _⟩ => ⟨S512, .f32⟩
  | .hbm, ⟨70, _⟩ => ⟨S50000x1, .i32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S512x1, .f32⟩
  | .hbm, ⟨76, _⟩ => ⟨S512x256, .f32⟩
  | .hbm, ⟨77, _⟩ => ⟨S512x256, .f32⟩
  | .hbm, ⟨78, _⟩ => ⟨S_, .i32⟩
  | .hbm, ⟨79, _⟩ => ⟨S_, .f32⟩
  | .hbm, ⟨80, _⟩ => ⟨S128x128, .f32⟩
  | .hbm, ⟨81, _⟩ => ⟨S_, .i32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S1x128, .f32⟩
  | .hbm, ⟨86, _⟩ => ⟨S512x128, .f32⟩
  | .hbm, ⟨87, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S1x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x256, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S512x256, .f32⟩
  | .local _ .vmem, ⟨25, _⟩ => ⟨S128x256, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_call0_v0 : Ref sig .tc := ⟨.hbm, 79, rfl⟩
abbrev main_v52 : Ref sig .tc := ⟨.hbm, 80, rfl⟩
abbrev main_c_12 : Ref sig .tc := ⟨.hbm, 81, rfl⟩
abbrev main_call1_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  pads_S10x128_S128x128_01180_000 : S10x128.Pads (![0, 0] : Fin 2 → Nat) ![118, 0] ![0, 0] S128x128
  h_S_ : 0 < S_.numel
  pads_S10_S128_01180 : S10.Pads (![0] : Fin 1 → Nat) ![118] ![0] S128
  shapeCasts_S128_S1x128 : S128.ShapeCasts S1x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S512x128_S512x128_0_0 : ∀ a, (![0, 0] : Fin 2 → Nat) a + S512x128.size a ≤ S512x128.size a
  h_S512x128 : 0 < S512x128.numel
  slices_S512x128_S512x10_0_0 : S512x128.Slices ![0, 0] S512x10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x128_S512x128_1_0_0_1_n_n_wf : DotDims.WF S512x256 S256x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S50000x256.size a
  hwx1_4 : ∀ i : grid1.Coords, EltTy.bits .f32 = 32 ∨ (Rect.block (s := S50000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x256.size a ≤ S50000x256.size a
  hwx2_4 : ∀ i : grid2.Coords, EltTy.bits .f32 = 32 ∨ (Rect.block (s := S50000x256) S5000x256.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S512x256.size a
  hwx3_0 : ∀ i : grid3.Coords, EltTy.bits .f32 = 32 ∨ (Rect.block (s := S512x256) S512x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x128.size a ≤ S512x128.size a
  hwx3_5 : ∀ i : grid3.Coords, EltTy.bits .f32 = 32 ∨ (Rect.block (s := S512x128) S512x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v51) S512x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S512x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S128x10 : Shape := ⟨2, ![128, 10]⟩
abbrev S512x10 : Shape := ⟨2, ![512, 10]⟩
abbrev S1x10 : Shape := ⟨2, ![1, 10]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S256x128, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S128x256, .f32⟩
  | .hbm, ⟨10, _⟩ => ⟨S128, .f32⟩
  | .hbm, ⟨11, _⟩ => ⟨S10x128, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S128x256, .f32⟩
  | .hbm, ⟨32, _⟩ => ⟨S50000x256, .f32⟩
  | .hbm, ⟨33, _⟩ => ⟨S1x256, .f32⟩
  | .hbm, ⟨34, _⟩ => ⟨S50000x256, .f32⟩
  | .hbm, ⟨35, _⟩ => ⟨S50000x256, .f32⟩
  | .hbm, ⟨36, _⟩ => ⟨S_, .f32⟩
  | .hbm, ⟨37, _⟩ => ⟨S50000x256, .f32⟩
  | .hbm, ⟨38, _⟩ => ⟨S50000x256, .f32⟩
  | .hbm, ⟨39, _⟩ => ⟨S1x800000, .i32⟩
  | .hbm, ⟨40, _⟩ => ⟨S800000, .i32⟩
  | .hbm, ⟨41, _⟩ => ⟨S1x800000, .i32⟩
  | .hbm, ⟨42, _⟩ => ⟨S800000, .i32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .hbm, ⟨57, _⟩ => ⟨S256x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S1x800000, .i32⟩
  | .hbm, ⟨66, _⟩ => ⟨S800000, .i32⟩
  | .hbm, ⟨67, _⟩ => ⟨S1x800000, .i32⟩
  | .hbm, ⟨68, _⟩ => ⟨S800000, .i32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .f32⟩
  | .hbm, ⟨78, _⟩ => ⟨S_, .f32⟩
  | .hbm, ⟨79, _⟩ => ⟨S50000x256, .f32⟩
  | .hbm, ⟨80, _⟩ => ⟨S800000x1, .i32⟩
  | .hbm, ⟨81, _⟩ => ⟨S50000x256, .f32⟩
  | .hbm, ⟨82, _⟩ => ⟨S50000x256, .f32⟩
  | .hbm, ⟨83, _⟩ => ⟨S256x256, .f32⟩
  | .hbm, ⟨84, _⟩ => ⟨S50000x256, .f32⟩
  | .hbm, ⟨85, _⟩ => ⟨S1x256, .f32⟩
  | .hbm, ⟨86, _⟩ => ⟨S50000x256, .f32⟩
  | .hbm, ⟨87, _⟩ => ⟨S50000x256, .f32⟩
  | .hbm, ⟨88, _⟩ => ⟨S_, .f32⟩
  | .hbm, ⟨89, _⟩ => ⟨S50000x256, .f32⟩
  | .hbm, ⟨90, _⟩ => ⟨S50000x256, .f32⟩
  | .hbm, ⟨91, _⟩ => ⟨S_, .f32⟩
  | .hbm, ⟨92, _⟩ => ⟨S512x256, .f32⟩
  | .hbm, ⟨93, _⟩ => ⟨S50000x1, .i32⟩
  | .hbm, ⟨94, _⟩ => ⟨S512x256, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S512, .f32⟩
  | .hbm, ⟨99, _⟩ => ⟨S50000x1, .i32⟩
  | .hbm, ⟨100, _⟩ => ⟨S512, .f32⟩
  | .hbm, ⟨101, _⟩ => ⟨S_, .f32⟩
  | .hbm, ⟨102, _⟩ => ⟨S512, .f32⟩
  | .hbm, ⟨103, _⟩ => ⟨S512, .f32⟩
  | .hbm, ⟨104, _⟩ => ⟨S512x1, .f32⟩
  | .hbm, ⟨105, _⟩ => ⟨S512x256, .f32⟩
  | .hbm, ⟨106, _⟩ => ⟨S512x256, .f32⟩
  | .hbm, ⟨107, _⟩ => ⟨S256x128, .f32⟩
  | .hbm, ⟨108, _⟩ => ⟨S512x128, .f32⟩
  | .hbm, ⟨109, _⟩ => ⟨S1x128, .f32⟩
  | .hbm, ⟨110, _⟩ => ⟨S512x128, .f32⟩
  | .hbm, ⟨111, _⟩ => ⟨S512x128, .f32⟩
  | .hbm, ⟨112, _⟩ => ⟨S_, .f32⟩
  | .hbm, ⟨113, _⟩ => ⟨S512x128, .f32⟩
  | .hbm, ⟨114, _⟩ => ⟨S512x128, .f32⟩
  | .hbm, ⟨115, _⟩ => ⟨S128x10, .f32⟩
  | .hbm, ⟨116, _⟩ => ⟨S512x10, .f32⟩
  | .hbm, ⟨117, _⟩ => ⟨S1x10, .f32⟩
  | .hbm, ⟨118, _⟩ => ⟨S512x10, .f32⟩
  | .hbm, ⟨119, _⟩ => ⟨S512x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_cst : Ref sig .tc := ⟨.hbm, 62, rfl⟩
abbrev main_call1_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_4 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_8 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_10 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call3_cst : Ref sig .tc := ⟨.hbm, 112, rfl⟩
abbrev main_call3_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S256x256_S256x256_1_0 : S256x256.Transposes [1, 0] S256x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S128x256_S256x128_1_0 : S128x256.Transposes [1, 0] S256x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x128_S512x128_1_0_0_1_n_n_wf : DotDims.WF S512x256 S256x128 S512x128 [1] [0] [0] [1] [] []
  dot_S512x128_S128x10_S512x10_1_0_0_1_n_n_wf : DotDims.WF S512x128 S128x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The kernel program's run, with its result.

  The program is thirteen segments: stretches of host operations and four launches.  Its frame certificate walks the
  contents of every buffer through the segments, from the launch memory to the return (the fold W0 … W13), and concludes
  that the argument arrays end as they began.  The launch theorem over those segments says more: at the return EVERY
  buffer outside the launches' scoped memory holds the last fold's contents.  Read at the result buffer that is the
  result's value; read at the arguments it is the frame.  Nothing here opens the fold: what W13 holds at the result
  buffer is computed elsewhere.
-/
import proofs.«125185_j71528385348099_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last fold's
    contents and the argument arrays as launched.

    The obligations of the launch theorem, in order.  The program is the run of its segments.  No pipeline is entered
    twice.  No core owes anything at launch, and no level is in play.  The launch element is the pipelines' own, with
    no further ghost state per core.  Each segment is entered from exactly what the one before it left, and the last
    leaves every unscoped buffer at W13 beside the generator register and an empty debt.  At launch a core's unscoped
    buffers are held at the launch memory, which is W0.  At the end those buffers, read against the final state, give
    the memory's contents at each of them. -/
theorem run_result : θ_run defs (onTc (τ := τ) (main (F := F))) ⟨m, fun _ => 0, ρ⟩ (fun r => ∀ c : Dev nD,
      r.2.mem ((c.tc : Thread nD τ).loc main_v57) = W13 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit (pcfgs (F := F)) adm (pdats m ρ) () cellOf_inj emb₁ defs₀ 𝒱₀ L lv m ρ main (segs m ρ)
    ?hmain ?hnd (O₀ := 0) (hL := ?hL) (G := fun _ => iprop(emp))
    (u₀ := initOf (Pipeline.cells cfgs cellOf_inj) (Pipeline.launchToks cfgs cellOf_inj)) (hu₀ := ?hu0)
    (T₀ := fun c => iprop(StableHlo.held (c : Thread nD τ) (Pipeline.ucRefs τ sig) (W0 m ρ c) ∗ R c)) (Tₙ := Tₙ m ρ)
    (hch := ?hch) (hinit := ?hinit)
    (QY := fun c s => ∀ b ∈ Pipeline.ucRefs τ sig, s.mem (((c : Thread nD τ)).1, b) = W13 m ρ c b)
    (hfin := ?hfin) (hQ := ?hQ)
  case hmain =>
    intro c Q
    rw [main_run m ρ c]
  case hnd =>
    unfold segs
    simp only [Pipeline.Seg.pipes_host, Pipeline.Seg.pipes_region, Pipeline.Seg.pipes_nil]
    decide
  case hL => exact fun _ _ => rfl
  case hu0 =>
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have hemp : (BI.emp : sProp 𝕄) ⊢ bigSep Finset.univ (fun _ : Dev nD => (BI.emp : sProp 𝕄)) := by
      rw [BI.bigSep_emp_const]
    iintro Hown
    imodintro
    isplitl [Hown]
    · iapply hown
      iexact Hown
    · iapply hemp
      iempintro
  case hch =>
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => ?_⟩
    dsimp only [Pipeline.Seg.post, hseg, Pipeline.HostSeg.ofOps]
    iintro ⟨Hbufs, Hreg, Hdebt⟩
    isplitl [Hbufs Hreg]
    · isplitl [Hbufs]
      · iexact Hbufs
      · iexact Hreg
    · iexact Hdebt
  case hinit =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Hdebt, -, Hreg, -⟩, -⟩
    imodintro
    isplitl [Hbufs]
    · iexact Hbufs
    isplitl [Hreg]
    · iexists _
      iexact Hreg
    · iexists ∅
      iexact Hdebt
  case hfin =>
    intro c s'
    iintro ⟨⟨Hbufs, -⟩, Hstate⟩
    imodintro
    unfold StableHlo.held
    iapply (pointsTo_read_all (Pipeline.ucRefs τ sig) (fun b => (((c : Thread nD τ)).1, b)) (W13 m ρ c) s')
    isplitl [Hbufs]
    · iexact Hbufs
    · iexact Hstate
  case hQ =>
    intro s h c
    exact ⟨h c _ (mem_uc main_v57 (by decide)),
      (h c _ (mem_uc main_arg0 (by decide))).trans (W13_main_arg0 m ρ c),
      (h c _ (mem_uc main_arg1 (by decide))).trans (W13_main_arg1 m ρ c),
      (h c _ (mem_uc main_arg2 (by decide))).trans (W13_main_arg2 m ρ c),
      (h c _ (mem_uc main_arg3 (by decide))).trans (W13_main_arg3 m ρ c),
      (h c _ (mem_uc main_arg4 (by decide))).trans (W13_main_arg4 m ρ c),
      (h c _ (mem_uc main_arg5 (by decide))).trans (W13_main_arg5 m ρ c),
      (h c _ (mem_uc main_arg6 (by decide))).trans (W13_main_arg6 m ρ c),
      (h c _ (mem_uc main_arg7 (by decide))).trans (W13_main_arg7 m ρ c),
      (h c _ (mem_uc main_arg8 (by decide))).trans (W13_main_arg8 m ρ c),
      (h c _ (mem_uc main_arg9 (by decide))).trans (W13_main_arg9 m ρ c),
      (h c _ (mem_uc main_arg10 (by decide))).trans (W13_main_arg10 m ρ c),
      (h c _ (mem_uc main_arg11 (by decide))).trans (W13_main_arg11 m ρ c),
      (h c _ (mem_uc main_arg12 (by decide))).trans (W13_main_arg12 m ρ c)⟩

end Cert.KernelIdeal.RunValue

end
-- ==== Proof.LibDot.lean ====
/-
  General lemma: a plain matrix product read at an entry.

  For the dimension numbers "rows × contraction times contraction × columns" with no batch axis, the kernel's matrix
  product into a zero accumulator and the host's `dot_general` are, at the ideal instance, the same exact sum: entry (p, q)
  is the sum over k of lhs (p, k) · rhs (k, q).
-/
import Idealize.ShloMosaic.PureOps.Ideal
import Idealize.ShloMosaic.PureOps.Ideal.Laws
import Idealize.ShloMosaic.Lib.ValueIdx

noncomputable section

namespace Cert.Lib.Dot

open Idealize.ShloMosaic Idealize.ShloMosaic.ValueIdx

variable {M K N : Nat} {φ₁ φ₂ : FTy}

/-- The left operand's index at result entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ =>
    exact ((DotDims.plain M K N).lhsIdx_val_of_single (cl := 1) rfl _ _).trans
      (contrEquiv1_symm_val (DotDims.plain M K N) K rfl rfl k)

/-- The right operand's index there is (k, q). -/
theorem plain_rhsIdx (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ =>
    exact ((DotDims.plain M K N).rhsIdx_val_of_single (cr := 0) rfl _ _).trans
      (contrEquiv1_symm_val (DotDims.plain M K N) K rfl rfl k)
  | ⟨1, _⟩ => rfl

/-- The kernel's product into a zero accumulator, at entry (p, q). -/
theorem matmul_plain_apply (prec : Option ContractPrecision) (lhs : FVec Ideal ⟨2, ![M, K]⟩ φ₁) (rhs : FVec Ideal ⟨2, ![K, N]⟩ φ₂)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's `dot_general`, at entry (p, q). -/
theorem dotGeneral_plain_apply (prec : Option ContractPrecision) (sched : HostSchedule) (lhs : FVec Ideal ⟨2, ![M, K]⟩ φ₁)
    (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) := by
  rw [Ideal.dotGeneral_apply, ← Equiv.sum_comp (contrEquiv1 (DotDims.plain M K N) K rfl rfl).symm]
  exact Finset.sum_congr rfl fun k _ => by rw [plain_lhsIdx, plain_rhsIdx]

end Cert.Lib.Dot

end
-- ==== Proof.LibDense.lean ====
/-
  General lemma: a dense layer read at an entry.  (It builds on the plain matrix product of LibDot, which it imports
  from the same directory.)

  For a left operand of M rows and K columns, a weight matrix W of N rows and K columns and a bias b of N entries,
  the affine map has entry (p, q) equal to  Σ_k lhs(p, k) · W(q, k) + b(q):  the left operand times the TRANSPOSE of
  the weights, plus the bias repeated down the rows.  The rectifier takes the maximum of every entry with zero.

  Two programs spell this map differently.  One multiplies on the matrix unit into a zero accumulator, after a change
  of float format of both operands (the identity on exact values), transposes the weights as a vector operation and
  repeats a [1, N] bias row by a vector broadcast.  The other calls the host's dot_general on the transposed weights and
  repeats an [N] bias by two broadcasts, through [1, N].  At the exact values both are the affine map above, entry by
  entry: a product of a row with a column is one finite sum over the contraction index, whatever unit computes it.
-/
import proofs.«125185_j71528385348099_1_alg».proof.Proof.LibDot
import Idealize.ShloMosaic.Lib.ValueLayout
import Idealize.ShloMosaic.Lib.Pipeline.Value

noncomputable section

namespace Cert.Dense

open Idealize.ShloMosaic Idealize.ShloMosaic.ValueIdx

variable {M K N : Nat}

/-- The zero a rectifier compares with: the all-zero 32-bit word read as an exact value. -/
abbrev zero32 : EReal := Ideal.ofBits .f32 0x00000000#32

/-- The affine map: entry (p, q) is  Σ_k lhs(p, k) · W(q, k) + b(q). -/
def affine (lhs : FVec Ideal ⟨2, ![M, K]⟩ .f32) (W : FVec Ideal ⟨2, ![N, K]⟩ .f32) (b : FVec Ideal ⟨1, ![N]⟩ .f32) :
    FVec Ideal ⟨2, ![M, N]⟩ .f32 :=
  fun i => (∑ k : Fin K, lhs (ix2 (i 0) k) * W (ix2 (i 1) k)) + b (ix1 (i 1))

/-- The rectifier: every entry's maximum with zero. -/
def relu {s : Shape} (x : FVec Ideal s .f32) : FVec Ideal s .f32 := fun i => max (x i) zero32

theorem affine_apply (lhs : FVec Ideal ⟨2, ![M, K]⟩ .f32) (W : FVec Ideal ⟨2, ![N, K]⟩ .f32) (b : FVec Ideal ⟨1, ![N]⟩ .f32)
    (p : Fin M) (q : Fin N) :
    affine lhs W b (ix2 p q) = (∑ k : Fin K, lhs (ix2 p k) * W (ix2 q k)) + b (ix1 q) := rfl

theorem relu_apply {s : Shape} (x : FVec Ideal s .f32) (i : s.Idx) : relu x i = max (x i) zero32 := rfl

/-- An entry of the affine map reads one row of the left operand, one row of the weights and one bias entry: two
    affine maps whose operands agree there agree at the entry (the operands may be of different heights: a block
    of rows against the whole array). -/
theorem affine_congr {M' : Nat} (lhs : FVec Ideal ⟨2, ![M, K]⟩ .f32) (lhs' : FVec Ideal ⟨2, ![M', K]⟩ .f32)
    (W W' : FVec Ideal ⟨2, ![N, K]⟩ .f32) (b b' : FVec Ideal ⟨1, ![N]⟩ .f32) (p : Fin M) (p' : Fin M') (q q' : Fin N)
    (hl : ∀ k, lhs (ix2 p k) = lhs' (ix2 p' k)) (hw : ∀ k, W (ix2 q k) = W' (ix2 q' k)) (hb : b (ix1 q) = b' (ix1 q')) :
    affine lhs W b (ix2 p q) = affine lhs' W' b' (ix2 p' q') := by
  rw [affine_apply, affine_apply, hb]
  exact congrArg (· + b' (ix1 q')) (Finset.sum_congr rfl fun k _ => by rw [hl k, hw k])

/-- The transposed weights at (k, q) are the weights at (q, k). -/
theorem transpose_weights_apply {α : Type} (W : (⟨2, ![N, K]⟩ : Shape).Idx → α)
    (h : (⟨2, ![N, K]⟩ : Shape).Transposes ([1, 0] : List (Fin 2)) ⟨2, ![K, N]⟩) (k : Fin K) (q : Fin N) :
    transpose ⟨2, ![K, N]⟩ ([1, 0] : List (Fin 2)) W h (ix2 k q) = W (ix2 q k) :=
  transpose_apply ([1, 0] : List (Fin 2)) W h (ix2 k q) (ix2 q k) (fun b => match b with
    | ⟨0, _⟩ => rfl
    | ⟨1, _⟩ => rfl)

/-- The matrix unit's spelling: the product of the re-formatted left operand with the transposed re-formatted weights
    into a zero accumulator, plus the bias row repeated down the rows, is the affine map of the [1, N] row's entries. -/
theorem mxu_affine (d : DotDims ⟨2, ![M, K]⟩ ⟨2, ![K, N]⟩ ⟨2, ![M, N]⟩) (hd : d = DotDims.plain M K N)
    (lhs : FVec Ideal ⟨2, ![M, K]⟩ .f32) (W : FVec Ideal ⟨2, ![N, K]⟩ .f32) (b2 : FVec Ideal ⟨2, ![1, N]⟩ .f32)
    (hbf : FTy.bf16.bits < FTy.f32.bits)
    (ht : (⟨2, ![N, K]⟩ : Shape).Transposes ([1, 0] : List (Fin 2)) ⟨2, ![K, N]⟩)
    (hb : (⟨2, ![1, N]⟩ : Shape).Broadcasts ⟨2, ![M, N]⟩) :
    addf (matmul d none (truncf .bf16 lhs hbf) (transpose ⟨2, ![K, N]⟩ ([1, 0] : List (Fin 2)) (truncf .bf16 W hbf) ht)
        (constant ⟨2, ![M, N]⟩ .f32 0x00000000#32)) (broadcastTo ⟨2, ![M, N]⟩ b2 hb)
      = affine lhs W (fun i => b2 (ix2 (0 : Fin 1) (i 0))) := by
  subst hd
  funext i
  obtain ⟨p, q, rfl⟩ : ∃ (p : Fin M) (q : Fin N), i = ix2 p q := ⟨i 0, i 1, eq_ix2 i⟩
  show FloatOps.matmul (DotDims.plain M K N) none lhs (transpose ⟨2, ![K, N]⟩ ([1, 0] : List (Fin 2)) W ht)
      (constant ⟨2, ![M, N]⟩ .f32 0x00000000#32) (ix2 p q) + broadcastTo ⟨2, ![M, N]⟩ b2 hb (ix2 p q) = _
  rw [Cert.Lib.Dot.matmul_plain_apply, broadcastTo_1b_ab_apply, affine_apply]
  refine congrArg (· + b2 (ix2 (0 : Fin 1) q)) (Finset.sum_congr rfl fun k _ => ?_)
  rw [transpose_weights_apply]

/-- An [N] row repeated through [1, N] to [M, N] reads, at (p, q), the row's entry q. -/
theorem bias_rows_apply {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => match a with
    | ⟨0, _⟩ => by show (0 : Nat) = if (1 : Nat) = 1 then 0 else p.val; rw [if_pos rfl]
    | ⟨1, _⟩ => by
      show q.val = if N = 1 then 0 else q.val
      split
      · have := q.isLt; omega
      · rfl)]
  exact broadcastInDim_apply ![1] h1 b (ix2 (0 : Fin 1) q) (ix1 q) (fun a => match a with
    | ⟨0, _⟩ => by
      show q.val = if N = 1 then 0 else q.val
      split
      · have := q.isLt; omega
      · rfl)

/-- The host's spelling: dot_general of the left operand with the transposed weights, plus the bias repeated through
    [1, N], is the same affine map. -/
theorem host_affine (d : DotDims ⟨2, ![M, K]⟩ ⟨2, ![K, N]⟩ ⟨2, ![M, N]⟩) (hd : d = DotDims.plain M K N)
    (lhs : FVec Ideal ⟨2, ![M, K]⟩ .f32) (W : FVec Ideal ⟨2, ![N, K]⟩ .f32) (b : FVec Ideal ⟨1, ![N]⟩ .f32)
    (ht : (⟨2, ![N, K]⟩ : Shape).Transposes ([1, 0] : List (Fin 2)) ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none lhs (transpose ⟨2, ![K, N]⟩ ([1, 0] : List (Fin 2)) W ht))
        (broadcastInDim ⟨2, ![M, N]⟩ ![0, 1] h2 (broadcastInDim ⟨2, ![1, N]⟩ ![1] h1 b))
      = affine lhs W b := by
  subst hd
  funext i
  obtain ⟨p, q, rfl⟩ : ∃ (p : Fin M) (q : Fin N), i = ix2 p q := ⟨i 0, i 1, eq_ix2 i⟩
  show FloatOps.dotGeneral (DotDims.plain M K N) none .single lhs (transpose ⟨2, ![K, N]⟩ ([1, 0] : List (Fin 2)) W ht) (ix2 p q)
      + broadcastInDim ⟨2, ![M, N]⟩ ![0, 1] h2 (broadcastInDim ⟨2, ![1, N]⟩ ![1] h1 b) (ix2 p q) = _
  rw [Cert.Lib.Dot.dotGeneral_plain_apply, bias_rows_apply, affine_apply]
  refine congrArg (· + b (ix1 q)) (Finset.sum_congr rfl fun k _ => ?_)
  rw [transpose_weights_apply]

/-- The vector unit's rectifier (a maximum with the splat of the zero word) is `relu`. -/
theorem splat_relu {s : Shape} (x : FVec Ideal s .f32) :
    maximumf x (broadcast s (Scalar.ofBits (F := Ideal) .f32 0x00000000#32)) = relu x := rfl

/-- The host's rectifier (a maximum with the zero constant repeated over the shape) is `relu`. -/
theorem host_relu {s : Shape} (x : FVec Ideal s .f32) (h0 : (⟨0, ![]⟩ : Shape).BroadcastsInDim s ![]) :
    maximumf x (broadcastInDim s ![] h0 (constant (F := Ideal) ⟨0, ![]⟩ .f32 0x00000000#32)) = relu x := rfl

end Cert.Dense

end
-- ==== Proof.RefLayers.lean ====
/-
  The reference program, layer by layer.

  Each graph layer of the reference adds to the node features their neighbourhood sums, multiplies by the transposed
  weights on the host, adds the bias and rectifies; the head applies one more rectified dense layer and a last affine
  one to the pooled features.  Read at the exact values each of these five stages is the affine map of its input
  (rectified, for the first four): the host's dot_general is the row-by-column sum and the two broadcasts of the bias
  repeat it down the rows.  The neighbourhood sums and the pooling stay as the host operations that compute them:
  nothing here looks inside a gather or a scatter.
-/
import proofs.«125185_j71528385348099_1_alg».proof.Proof.Gen.ReferenceIdeal.Read
import proofs.«125185_j71528385348099_1_alg».proof.Proof.LibDense

noncomputable section

namespace Cert.ReferenceIdeal.Layers

open Cert.ReferenceIdeal Cert.ReferenceIdeal.Read Idealize.ShloMosaic Idealize.ShloMosaic.ValueIdx Cert.Dense

/-- First graph layer: rectified affine map of the features plus their neighbourhood sums. -/
theorem layer1 (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) :
    val_main_v20 (F := Ideal) x0 x1 x3 x4
      = relu (affine (addf x0 (val_main_v13 (F := Ideal) x0 x1)) x3 (x4 : FVec Ideal ⟨1, ![256]⟩ .f32)) := by
  unfold val_main_v20 val_main_call0_v0 val_main_call0_cst val_main_v19 val_main_v18 val_main_v17 val_main_v16 val_main_v15 val_main_v14
  exact (host_relu _ _).trans (congrArg relu (host_affine _ rfl _ _ _ _ _ _))

/-- Second graph layer, of the first layer's output. -/
theorem layer2 (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v41 (F := Ideal) x0 x1 x3 x4 x5 x6
      = relu (affine (addf (val_main_v20 (F := Ideal) x0 x1 x3 x4) (val_main_v34 (F := Ideal) x0 x1 x3 x4)) x5 (x6 : FVec Ideal ⟨1, ![256]⟩ .f32)) := by
  unfold val_main_v41 val_main_call1_v0 val_main_call1_cst val_main_v40 val_main_v39 val_main_v38 val_main_v37 val_main_v36 val_main_v35
  exact (host_relu _ _).trans (congrArg relu (host_affine _ rfl _ _ _ _ _ _))

/-- Third graph layer, of the second layer's output. -/
theorem layer3 (x0 : (⟨S50000x128, .f32⟩ : BufTy).Contents (Elt Ideal)) (x1 : (⟨S2x800000, .i32⟩ : BufTy).Contents (Elt Ideal)) (x3 : (⟨S256x128, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    val_main_v62 (F := Ideal) x0 x1 x3 x4 x5 x6 x7 x8
      = relu (affine (addf (val_main_v41 (F := Ideal) x0 x1 x3 x4 x5 x6) (val_main_v55 (F := Ideal) x0 x1 x3 x4 x5 x6)) x7 (x8 : FVec Ideal ⟨1, ![256]⟩ .f32)) := by
  unfold val_main_v62 val_main_call2_v0 val_main_call2_cst val_main_v61 val_main_v60 val_main_v59 val_main_v58 val_main_v57 val_main_v56
  exact (host_relu _ _).trans (congrArg relu (host_affine _ rfl _ _ _ _ _ _))

/-- The head's hidden layer: rectified affine map of the pooled features. -/
theorem head1 (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S256x128, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S128x256, .f32⟩ : BufTy).Contents (Elt Ideal)) (x10 : (⟨S128, .f32⟩ : BufTy).Contents (Elt Ideal)) :
    val_main_v80 (F := Ideal) x0 x1 x2 x3 x4 x5 x6 x7 x8 x9 x10
      = relu (affine (val_main_v74 (F := Ideal) x0 x1 x2 x3 x4 x5 x6 x7 x8) x9 (x10 : FVec Ideal ⟨1, ![128]⟩ .f32)) := by
  unfold val_main_v80 val_main_call3_v0 val_main_call3_cst val_main_v79 val_main_v78 val_main_v77 val_main_v76 val_main_v75
  exact (host_relu _ _).trans (congrArg relu (host_affine _ rfl _ _ _ _ _ _))

/-- The head's output layer: affine map of the hidden layer, ten columns. -/
theorem head2 (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S256x128, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S128x256, .f32⟩ : BufTy).Contents (Elt Ideal)) (x10 : (⟨S128, .f32⟩ : BufTy).Contents (Elt Ideal)) (x11 : (⟨S10x128, .f32⟩ : BufTy).Contents (Elt Ideal)) (x12 : (⟨S10, .f32⟩ : BufTy).Contents (Elt Ideal)) :
    val_main_v85 (F := Ideal) x0 x1 x2 x3 x4 x5 x6 x7 x8 x9 x10 x11 x12
      = affine (val_main_v80 (F := Ideal) x0 x1 x2 x3 x4 x5 x6 x7 x8 x9 x10) x11 (x12 : FVec Ideal ⟨1, ![10]⟩ .f32) := by
  unfold val_main_v85 val_main_v84 val_main_v83 val_main_v82 val_main_v81
  exact host_affine _ rfl _ _ _ _ _ _

end Cert.ReferenceIdeal.Layers

end
-- ==== Proof.KernelPayloads.lean ====
/-
  The four kernel bodies, as affine maps of the blocks they load.

  A graph-layer body loads a block h of node features, the matching block a of neighbourhood sums, the whole weight
  matrix W and the bias as one row b; it stores  max(0, (h + a) · Wᵀ + b),  the product taken on the matrix unit into
  a zero accumulator after a change of float format, the bias row repeated down the block.  At the exact values that
  is the rectified affine map of h + a.  The head's body chains two such products on the pooled features: a rectified
  affine map, then an affine one.  A shape cast of an array to its own shape, which the bodies apply to some loads,
  is the identity.
-/
import proofs.«125185_j71528385348099_1_alg».proof.Proof.Gen.KernelIdeal.Skeleton
import proofs.«125185_j71528385348099_1_alg».proof.Proof.LibDense

noncomputable section

namespace Cert.KernelIdeal.Payloads

open Cert.KernelIdeal Cert.KernelIdeal.Gen Idealize.ShloMosaic Idealize.ShloMosaic.ValueIdx Cert.Dense

/-- A [1, N] row read as its N entries. -/
abbrev rowOf {N : Nat} (b : FVec Ideal ⟨2, ![1, N]⟩ .f32) : FVec Ideal ⟨1, ![N]⟩ .f32 := fun i => b (ix2 (0 : Fin 1) (i 0))

/-- First graph layer's body (128 input features). -/
theorem layer1_body (h a : Vec Ideal S5000x128 .f32) (W : Vec Ideal S256x128 .f32) (b : Vec Ideal S1x256 .f32) :
    k0_pay1 (F := Ideal) h a W b = relu (affine (M := 5000) (K := 128) (N := 256) (addf h a) W (rowOf b)) := by
  unfold k0_pay1
  simp only [shapeCast_self]
  exact (splat_relu _).trans (congrArg relu (mxu_affine _ rfl _ _ _ _ _ _))

/-- Second graph layer's body (256 input features). -/
theorem layer2_body (h a : Vec Ideal S5000x256 .f32) (W : Vec Ideal S256x256 .f32) (b : Vec Ideal S1x256 .f32) :
    k1_pay1 (F := Ideal) h a W b = relu (affine (M := 5000) (K := 256) (N := 256) (addf h a) W (rowOf b)) := by
  unfold k1_pay1
  simp only [shapeCast_self]
  exact (splat_relu _).trans (congrArg relu (mxu_affine _ rfl _ _ _ _ _ _))

/-- Third graph layer's body: the same text as the second's. -/
theorem layer3_body (h a : Vec Ideal S5000x256 .f32) (W : Vec Ideal S256x256 .f32) (b : Vec Ideal S1x256 .f32) :
    k2_pay1 (F := Ideal) h a W b = relu (affine (M := 5000) (K := 256) (N := 256) (addf h a) W (rowOf b)) := by
  unfold k2_pay1
  simp only [shapeCast_self]
  exact (splat_relu _).trans (congrArg relu (mxu_affine _ rfl _ _ _ _ _ _))

/-- The head's body: an affine map of a rectified affine map of the pooled features. -/
theorem head_body (g : Vec Ideal S512x256 .f32) (W1 : Vec Ideal S128x256 .f32) (b1 : Vec Ideal S1x128 .f32)
    (W2 : Vec Ideal S128x128 .f32) (b2 : Vec Ideal S1x128 .f32) :
    k3_pay1 (F := Ideal) g W1 b1 W2 b2
      = affine (M := 512) (K := 128) (N := 128) (relu (affine (M := 512) (K := 256) (N := 128) g W1 (rowOf b1))) W2 (rowOf b2) := by
  unfold k3_pay1
  simp only [shapeCast_self]
  refine (mxu_affine _ rfl _ _ _ _ _ _).trans ?_
  refine congrArg (fun z => affine (M := 512) (K := 128) (N := 128) z W2 (rowOf b2)) ?_
  exact (splat_relu _).trans (congrArg relu (mxu_affine _ rfl _ _ _ _ _ _))

end Cert.KernelIdeal.Payloads

end
-- ==== Proof.KernelRegions.lean ====
/-
  From blocks to arrays: what each launch leaves in its output array.

  A graph layer's launch runs its body at ten points; point t stages rows 5000·t … 5000·t + 4999 of the node features
  and of the neighbourhood sums, all of the weights and the bias row, and writes back the same rows of the output.  An
  entry of the rectified affine map reads one row of the left operand, so what point t writes back is rows
  5000·t … of ONE function of the whole arrays; the ten row blocks tile the 50000 rows, and the output array ends as
  that function.  The head's launch has a single point whose blocks are the whole arrays.

  Everything is stated at the contents V the launch finds in the buffers, whatever they are; which values those are
  is the run's business.
-/
import proofs.«125185_j71528385348099_1_alg».proof.Proof.Gen.KernelIdeal.Frame
import proofs.«125185_j71528385348099_1_alg».proof.Proof.KernelPayloads
import Idealize.ShloMosaic.Lib.Pipeline.Value

set_option maxRecDepth 16384

noncomputable section

namespace Cert.KernelIdeal.Regions

open Cert.KernelIdeal Cert.KernelIdeal.Gen Cert.KernelIdeal.Payloads Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first graph layer's launch (pipeline 0) -/

/-- What the first launch leaves in its output array, as one function of the arrays it finds: the rectified affine
    map of the features plus the neighbourhood sums, all 50000 rows at once. -/
abbrev layer1_out (c : Dev nD) : FVec Ideal ⟨2, ![50000, 256]⟩ .f32 :=
  relu (affine (M := 50000) (K := 128) (N := 256) (addf (V c main_arg0) (V c main_v13)) (V c main_arg3) (rowOf (V c main_v14)))

/-- The index maps, decided once over the ten points: the two row-blocked inputs sit at the output's row block and
    column block 0; the weights and the bias row are one block each; the output's row block is below ten. -/
theorem layer1_index : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) < 10 :=
  (by decide +kernel : ∀ t : Fin grid0.N, _)

/-- Every row block is some point's. -/
theorem layer1_onto : ∀ q : Fin 10, ∃ t : Fin cfg0.N, win0_4.index t = ![q.val, 0] :=
  (by decide +kernel : ∀ q : Fin 10, ∃ t : Fin grid0.N, win0_4.index t = ![q.val, 0])

/-- What point t writes back is block t of that function: rows 5000·t … 5000·t + 4999 of the output depend on the
    same rows of the two row-blocked inputs and on all of the weights and the bias. -/
theorem layer1_flushed (c : Dev nD) (t : Fin cfg0.N) :
    (dat0 (F := Ideal) V c).flushed 4 t = ((cfg0.win 4).blk t).view.read (Elt Ideal) (layer1_out V c) := by
  show (cfg0.win 4).cut (grid0.coords t) ((dat0 V c).after 4 t) = _
  rw [after0_4]
  unfold out0_4
  rw [View.canon_unit_zero zero_offsets]
  simp only [View.ld_unit_zero (S := S5000x128) zero_offsets, View.ld_unit_zero (S := S256x128) zero_offsets,
    View.ld_unit_zero (S := S1x256) zero_offsets]
  rw [layer1_body]
  obtain ⟨e00, e01, e10, e11, e20, e21, e30, e31, e41, e40⟩ := layer1_index t
  funext y
  obtain ⟨r, j, rfl⟩ : ∃ (r : Fin 5000) (j : Fin 256), y = ix2 r j := ⟨y 0, y 1, eq_ix2 y⟩
  have hR : win0_4.index t (0 : Fin 2) * 5000 + r.val < 50000 := by have := r.isLt; omega
  -- the block's entry (r, j) is the array's entry (5000·t + r, j)
  have hE : ((cfg0.win 4).blk t).view.emb (ix2 r j) = ix2 (⟨win0_4.index t (0 : Fin 2) * 5000 + r.val, hR⟩ : Fin 50000) j := by
    funext ax; apply Fin.ext
    match ax with
    | ⟨0, _⟩ => show win0_4.index t (0 : Fin 2) * 5000 + 1 * r.val = win0_4.index t (0 : Fin 2) * 5000 + r.val; omega
    | ⟨1, _⟩ => show win0_4.index t (1 : Fin 2) * 256 + 1 * j.val = j.val; omega
  show relu (affine (M := 5000) (K := 128) (N := 256) (addf (iblk0 V c 0 t) (iblk0 V c 1 t)) (iblk0 V c 2 t) (rowOf (iblk0 V c 3 t))) (ix2 r j)
    = layer1_out V c (((cfg0.win 4).blk t).view.emb (ix2 r j))
  rw [hE, relu_apply]
  refine congrArg (max · zero32) (affine_congr _ _ _ _ _ _ r _ j j (fun k => ?_) (fun k => ?_) ?_)
  · show FloatOps.addf (F := Ideal) (φ := .f32) (V c main_arg0 (((cfg0.win 0).blk t).view.emb (ix2 r k))) (V c main_v13 (((cfg0.win 1).blk t).view.emb (ix2 r k)))
      = FloatOps.addf (F := Ideal) (φ := .f32) (V c main_arg0 (ix2 (⟨win0_4.index t (0 : Fin 2) * 5000 + r.val, hR⟩ : Fin 50000) k)) (V c main_v13 (ix2 (⟨win0_4.index t (0 : Fin 2) * 5000 + r.val, hR⟩ : Fin 50000) k))
    have h0 : ((cfg0.win 0).blk t).view.emb (ix2 r k) = ix2 (⟨win0_4.index t (0 : Fin 2) * 5000 + r.val, hR⟩ : Fin 50000) k := by
      funext ax; apply Fin.ext
      match ax with
      | ⟨0, _⟩ => show win0_0.index t (0 : Fin 2) * 5000 + 1 * r.val = win0_4.index t (0 : Fin 2) * 5000 + r.val; omega
      | ⟨1, _⟩ => show win0_0.index t (1 : Fin 2) * 128 + 1 * k.val = k.val; omega
    have h1 : ((cfg0.win 1).blk t).view.emb (ix2 r k) = ix2 (⟨win0_4.index t (0 : Fin 2) * 5000 + r.val, hR⟩ : Fin 50000) k := by
      funext ax; apply Fin.ext
      match ax with
      | ⟨0, _⟩ => show win0_1.index t (0 : Fin 2) * 5000 + 1 * r.val = win0_4.index t (0 : Fin 2) * 5000 + r.val; omega
      | ⟨1, _⟩ => show win0_1.index t (1 : Fin 2) * 128 + 1 * k.val = k.val; omega
    rw [h0, h1]
  · show V c main_arg3 (((cfg0.win 2).blk t).view.emb (ix2 j k)) = V c main_arg3 (ix2 j k)
    refine congrArg (V c main_arg3) ?_
    funext ax; apply Fin.ext
    match ax with
    | ⟨0, _⟩ => show win0_2.index t (0 : Fin 2) * 256 + 1 * j.val = j.val; omega
    | ⟨1, _⟩ => show win0_2.index t (1 : Fin 2) * 128 + 1 * k.val = k.val; omega
  · show V c main_v14 (((cfg0.win 3).blk t).view.emb (ix2 (0 : Fin 1) j)) = V c main_v14 (ix2 (0 : Fin 1) j)
    refine congrArg (V c main_v14) ?_
    funext ax; apply Fin.ext
    match ax with
    | ⟨0, _⟩ => show win0_3.index t (0 : Fin 2) * 1 + 1 * 0 = 0; omega
    | ⟨1, _⟩ => show win0_3.index t (1 : Fin 2) * 256 + 1 * j.val = j.val; omega

/-- An index of the output array lies in point t's block iff each coordinate lies in the block's range. -/
theorem layer1_mem_block (t : Fin cfg0.N) (i : S50000x256.Idx) :
    i ∈ ((cfg0.win 4).blk t).view.set ↔ ∀ ax : Fin 2, win0_4.index t ax * S5000x256.size ax ≤ (i ax).val ∧ (i ax).val < win0_4.index t ax * S5000x256.size ax + S5000x256.size ax := by
  show i ∈ ((View.whole main_v15).slice (win0_4.rect t)).set ↔ _
  rw [View.set_slice_whole, Rect.mem_set_unit]
  exact Iff.rfl

/-- The ten row blocks tile the array: row r is in block r / 5000. -/
theorem layer1_cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := layer1_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [layer1_mem_block]
  intro ax
  match ax with
  | ⟨0, _⟩ => show win0_4.index t (0 : Fin 2) * 5000 ≤ (i 0).val ∧ (i 0).val < win0_4.index t (0 : Fin 2) * 5000 + 5000; omega
  | ⟨1, _⟩ => show win0_4.index t (1 : Fin 2) * 256 ≤ (i 1).val ∧ (i 1).val < win0_4.index t (1 : Fin 2) * 256 + 256; omega

/-- The output array after the first launch. -/
theorem layer1_array (c : Dev nD) : (dat0 (F := Ideal) V c).arrAt 4 cfg0.N = layer1_out V c :=
  (dat0 (F := Ideal) V c).arrAt_eq_of_cover 4 (layer1_out V c) (fun t _ => layer1_flushed V c t) (layer1_cover)

/-! ## The second graph layer's launch (pipeline 1) -/

/-- What the second launch leaves in its output array, as one function of the arrays it finds: the rectified affine
    map of the features plus the neighbourhood sums, all 50000 rows at once. -/
abbrev layer2_out (c : Dev nD) : FVec Ideal ⟨2, ![50000, 256]⟩ .f32 :=
  relu (affine (M := 50000) (K := 256) (N := 256) (addf (V c main_v15) (V c main_v25)) (V c main_arg5) (rowOf (V c main_v26)))

/-- The index maps, decided once over the ten points: the two row-blocked inputs sit at the output's row block and
    column block 0; the weights and the bias row are one block each; the output's row block is below ten. -/
theorem layer2_index : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) < 10 :=
  (by decide +kernel : ∀ t : Fin grid1.N, _)

/-- Every row block is some point's. -/
theorem layer2_onto : ∀ q : Fin 10, ∃ t : Fin cfg1.N, win1_4.index t = ![q.val, 0] :=
  (by decide +kernel : ∀ q : Fin 10, ∃ t : Fin grid1.N, win1_4.index t = ![q.val, 0])

/-- What point t writes back is block t of that function: rows 5000·t … 5000·t + 4999 of the output depend on the
    same rows of the two row-blocked inputs and on all of the weights and the bias. -/
theorem layer2_flushed (c : Dev nD) (t : Fin cfg1.N) :
    (dat1 (F := Ideal) V c).flushed 4 t = ((cfg1.win 4).blk t).view.read (Elt Ideal) (layer2_out V c) := by
  show (cfg1.win 4).cut (grid1.coords t) ((dat1 V c).after 4 t) = _
  rw [after1_4]
  unfold out1_4
  rw [View.canon_unit_zero zero_offsets]
  simp only [View.ld_unit_zero (S := S5000x256) zero_offsets, View.ld_unit_zero (S := S256x256) zero_offsets,
    View.ld_unit_zero (S := S1x256) zero_offsets]
  rw [layer2_body]
  obtain ⟨e00, e01, e10, e11, e20, e21, e30, e31, e41, e40⟩ := layer2_index t
  funext y
  obtain ⟨r, j, rfl⟩ : ∃ (r : Fin 5000) (j : Fin 256), y = ix2 r j := ⟨y 0, y 1, eq_ix2 y⟩
  have hR : win1_4.index t (0 : Fin 2) * 5000 + r.val < 50000 := by have := r.isLt; omega
  -- the block's entry (r, j) is the array's entry (5000·t + r, j)
  have hE : ((cfg1.win 4).blk t).view.emb (ix2 r j) = ix2 (⟨win1_4.index t (0 : Fin 2) * 5000 + r.val, hR⟩ : Fin 50000) j := by
    funext ax; apply Fin.ext
    match ax with
    | ⟨0, _⟩ => show win1_4.index t (0 : Fin 2) * 5000 + 1 * r.val = win1_4.index t (0 : Fin 2) * 5000 + r.val; omega
    | ⟨1, _⟩ => show win1_4.index t (1 : Fin 2) * 256 + 1 * j.val = j.val; omega
  show relu (affine (M := 5000) (K := 256) (N := 256) (addf (iblk1 V c 0 t) (iblk1 V c 1 t)) (iblk1 V c 2 t) (rowOf (iblk1 V c 3 t))) (ix2 r j)
    = layer2_out V c (((cfg1.win 4).blk t).view.emb (ix2 r j))
  rw [hE, relu_apply]
  refine congrArg (max · zero32) (affine_congr _ _ _ _ _ _ r _ j j (fun k => ?_) (fun k => ?_) ?_)
  · show FloatOps.addf (F := Ideal) (φ := .f32) (V c main_v15 (((cfg1.win 0).blk t).view.emb (ix2 r k))) (V c main_v25 (((cfg1.win 1).blk t).view.emb (ix2 r k)))
      = FloatOps.addf (F := Ideal) (φ := .f32) (V c main_v15 (ix2 (⟨win1_4.index t (0 : Fin 2) * 5000 + r.val, hR⟩ : Fin 50000) k)) (V c main_v25 (ix2 (⟨win1_4.index t (0 : Fin 2) * 5000 + r.val, hR⟩ : Fin 50000) k))
    have h0 : ((cfg1.win 0).blk t).view.emb (ix2 r k) = ix2 (⟨win1_4.index t (0 : Fin 2) * 5000 + r.val, hR⟩ : Fin 50000) k := by
      funext ax; apply Fin.ext
      match ax with
      | ⟨0, _⟩ => show win1_0.index t (0 : Fin 2) * 5000 + 1 * r.val = win1_4.index t (0 : Fin 2) * 5000 + r.val; omega
      | ⟨1, _⟩ => show win1_0.index t (1 : Fin 2) * 256 + 1 * k.val = k.val; omega
    have h1 : ((cfg1.win 1).blk t).view.emb (ix2 r k) = ix2 (⟨win1_4.index t (0 : Fin 2) * 5000 + r.val, hR⟩ : Fin 50000) k := by
      funext ax; apply Fin.ext
      match ax with
      | ⟨0, _⟩ => show win1_1.index t (0 : Fin 2) * 5000 + 1 * r.val = win1_4.index t (0 : Fin 2) * 5000 + r.val; omega
      | ⟨1, _⟩ => show win1_1.index t (1 : Fin 2) * 256 + 1 * k.val = k.val; omega
    rw [h0, h1]
  · show V c main_arg5 (((cfg1.win 2).blk t).view.emb (ix2 j k)) = V c main_arg5 (ix2 j k)
    refine congrArg (V c main_arg5) ?_
    funext ax; apply Fin.ext
    match ax with
    | ⟨0, _⟩ => show win1_2.index t (0 : Fin 2) * 256 + 1 * j.val = j.val; omega
    | ⟨1, _⟩ => show win1_2.index t (1 : Fin 2) * 256 + 1 * k.val = k.val; omega
  · show V c main_v26 (((cfg1.win 3).blk t).view.emb (ix2 (0 : Fin 1) j)) = V c main_v26 (ix2 (0 : Fin 1) j)
    refine congrArg (V c main_v26) ?_
    funext ax; apply Fin.ext
    match ax with
    | ⟨0, _⟩ => show win1_3.index t (0 : Fin 2) * 1 + 1 * 0 = 0; omega
    | ⟨1, _⟩ => show win1_3.index t (1 : Fin 2) * 256 + 1 * j.val = j.val; omega

/-- An index of the output array lies in point t's block iff each coordinate lies in the block's range. -/
theorem layer2_mem_block (t : Fin cfg1.N) (i : S50000x256.Idx) :
    i ∈ ((cfg1.win 4).blk t).view.set ↔ ∀ ax : Fin 2, win1_4.index t ax * S5000x256.size ax ≤ (i ax).val ∧ (i ax).val < win1_4.index t ax * S5000x256.size ax + S5000x256.size ax := by
  show i ∈ ((View.whole main_v27).slice (win1_4.rect t)).set ↔ _
  rw [View.set_slice_whole, Rect.mem_set_unit]
  exact Iff.rfl

/-- The ten row blocks tile the array: row r is in block r / 5000. -/
theorem layer2_cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := layer2_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [layer2_mem_block]
  intro ax
  match ax with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- The output array after the second launch. -/
theorem layer2_array (c : Dev nD) : (dat1 (F := Ideal) V c).arrAt 4 cfg1.N = layer2_out V c :=
  (dat1 (F := Ideal) V c).arrAt_eq_of_cover 4 (layer2_out V c) (fun t _ => layer2_flushed V c t) (layer2_cover)

/-! ## The third graph layer's launch (pipeline 2) -/

/-- What the third launch leaves in its output array, as one function of the arrays it finds: the rectified affine
    map of the features plus the neighbourhood sums, all 50000 rows at once. -/
abbrev layer3_out (c : Dev nD) : FVec Ideal ⟨2, ![50000, 256]⟩ .f32 :=
  relu (affine (M := 50000) (K := 256) (N := 256) (addf (V c main_v27) (V c main_v37)) (V c main_arg7) (rowOf (V c main_v38)))

/-- The index maps, decided once over the ten points: the two row-blocked inputs sit at the output's row block and
    column block 0; the weights and the bias row are one block each; the output's row block is below ten. -/
theorem layer3_index : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) < 10 :=
  (by decide +kernel : ∀ t : Fin grid2.N, _)

/-- Every row block is some point's. -/
theorem layer3_onto : ∀ q : Fin 10, ∃ t : Fin cfg2.N, win2_4.index t = ![q.val, 0] :=
  (by decide +kernel : ∀ q : Fin 10, ∃ t : Fin grid2.N, win2_4.index t = ![q.val, 0])

/-- What point t writes back is block t of that function: rows 5000·t … 5000·t + 4999 of the output depend on the
    same rows of the two row-blocked inputs and on all of the weights and the bias. -/
theorem layer3_flushed (c : Dev nD) (t : Fin cfg2.N) :
    (dat2 (F := Ideal) V c).flushed 4 t = ((cfg2.win 4).blk t).view.read (Elt Ideal) (layer3_out V c) := by
  show (cfg2.win 4).cut (grid2.coords t) ((dat2 V c).after 4 t) = _
  rw [after2_4]
  unfold out2_4
  rw [View.canon_unit_zero zero_offsets]
  simp only [View.ld_unit_zero (S := S5000x256) zero_offsets, View.ld_unit_zero (S := S256x256) zero_offsets,
    View.ld_unit_zero (S := S1x256) zero_offsets]
  rw [layer3_body]
  obtain ⟨e00, e01, e10, e11, e20, e21, e30, e31, e41, e40⟩ := layer3_index t
  funext y
  obtain ⟨r, j, rfl⟩ : ∃ (r : Fin 5000) (j : Fin 256), y = ix2 r j := ⟨y 0, y 1, eq_ix2 y⟩
  have hR : win2_4.index t (0 : Fin 2) * 5000 + r.val < 50000 := by have := r.isLt; omega
  -- the block's entry (r, j) is the array's entry (5000·t + r, j)
  have hE : ((cfg2.win 4).blk t).view.emb (ix2 r j) = ix2 (⟨win2_4.index t (0 : Fin 2) * 5000 + r.val, hR⟩ : Fin 50000) j := by
    funext ax; apply Fin.ext
    match ax with
    | ⟨0, _⟩ => show win2_4.index t (0 : Fin 2) * 5000 + 1 * r.val = win2_4.index t (0 : Fin 2) * 5000 + r.val; omega
    | ⟨1, _⟩ => show win2_4.index t (1 : Fin 2) * 256 + 1 * j.val = j.val; omega
  show relu (affine (M := 5000) (K := 256) (N := 256) (addf (iblk2 V c 0 t) (iblk2 V c 1 t)) (iblk2 V c 2 t) (rowOf (iblk2 V c 3 t))) (ix2 r j)
    = layer3_out V c (((cfg2.win 4).blk t).view.emb (ix2 r j))
  rw [hE, relu_apply]
  refine congrArg (max · zero32) (affine_congr _ _ _ _ _ _ r _ j j (fun k => ?_) (fun k => ?_) ?_)
  · show FloatOps.addf (F := Ideal) (φ := .f32) (V c main_v27 (((cfg2.win 0).blk t).view.emb (ix2 r k))) (V c main_v37 (((cfg2.win 1).blk t).view.emb (ix2 r k)))
      = FloatOps.addf (F := Ideal) (φ := .f32) (V c main_v27 (ix2 (⟨win2_4.index t (0 : Fin 2) * 5000 + r.val, hR⟩ : Fin 50000) k)) (V c main_v37 (ix2 (⟨win2_4.index t (0 : Fin 2) * 5000 + r.val, hR⟩ : Fin 50000) k))
    have h0 : ((cfg2.win 0).blk t).view.emb (ix2 r k) = ix2 (⟨win2_4.index t (0 : Fin 2) * 5000 + r.val, hR⟩ : Fin 50000) k := by
      funext ax; apply Fin.ext
      match ax with
      | ⟨0, _⟩ => show win2_0.index t (0 : Fin 2) * 5000 + 1 * r.val = win2_4.index t (0 : Fin 2) * 5000 + r.val; omega
      | ⟨1, _⟩ => show win2_0.index t (1 : Fin 2) * 256 + 1 * k.val = k.val; omega
    have h1 : ((cfg2.win 1).blk t).view.emb (ix2 r k) = ix2 (⟨win2_4.index t (0 : Fin 2) * 5000 + r.val, hR⟩ : Fin 50000) k := by
      funext ax; apply Fin.ext
      match ax with
      | ⟨0, _⟩ => show win2_1.index t (0 : Fin 2) * 5000 + 1 * r.val = win2_4.index t (0 : Fin 2) * 5000 + r.val; omega
      | ⟨1, _⟩ => show win2_1.index t (1 : Fin 2) * 256 + 1 * k.val = k.val; omega
    rw [h0, h1]
  · show V c main_arg7 (((cfg2.win 2).blk t).view.emb (ix2 j k)) = V c main_arg7 (ix2 j k)
    refine congrArg (V c main_arg7) ?_
    funext ax; apply Fin.ext
    match ax with
    | ⟨0, _⟩ => show win2_2.index t (0 : Fin 2) * 256 + 1 * j.val = j.val; omega
    | ⟨1, _⟩ => show win2_2.index t (1 : Fin 2) * 256 + 1 * k.val = k.val; omega
  · show V c main_v38 (((cfg2.win 3).blk t).view.emb (ix2 (0 : Fin 1) j)) = V c main_v38 (ix2 (0 : Fin 1) j)
    refine congrArg (V c main_v38) ?_
    funext ax; apply Fin.ext
    match ax with
    | ⟨0, _⟩ => show win2_3.index t (0 : Fin 2) * 1 + 1 * 0 = 0; omega
    | ⟨1, _⟩ => show win2_3.index t (1 : Fin 2) * 256 + 1 * j.val = j.val; omega

/-- An index of the output array lies in point t's block iff each coordinate lies in the block's range. -/
theorem layer3_mem_block (t : Fin cfg2.N) (i : S50000x256.Idx) :
    i ∈ ((cfg2.win 4).blk t).view.set ↔ ∀ ax : Fin 2, win2_4.index t ax * S5000x256.size ax ≤ (i ax).val ∧ (i ax).val < win2_4.index t ax * S5000x256.size ax + S5000x256.size ax := by
  show i ∈ ((View.whole main_v39).slice (win2_4.rect t)).set ↔ _
  rw [View.set_slice_whole, Rect.mem_set_unit]
  exact Iff.rfl

/-- The ten row blocks tile the array: row r is in block r / 5000. -/
theorem layer3_cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  obtain ⟨t, ht⟩ := layer3_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [layer3_mem_block]
  intro ax
  match ax with
  | ⟨0, _⟩ => show win2_4.index t (0 : Fin 2) * 5000 ≤ (i 0).val ∧ (i 0).val < win2_4.index t (0 : Fin 2) * 5000 + 5000; omega
  | ⟨1, _⟩ => show win2_4.index t (1 : Fin 2) * 256 ≤ (i 1).val ∧ (i 1).val < win2_4.index t (1 : Fin 2) * 256 + 256; omega

/-- The output array after the third launch. -/
theorem layer3_array (c : Dev nD) : (dat2 (F := Ideal) V c).arrAt 4 cfg2.N = layer3_out V c :=
  (dat2 (F := Ideal) V c).arrAt_eq_of_cover 4 (layer3_out V c) (fun t _ => layer3_flushed V c t) (layer3_cover)

/-! ## The head's launch (pipeline 3) -/

/-- What the head's launch leaves in its output array: the affine map of the rectified affine map of the pooled
    features, 512 rows by 128 columns. -/
abbrev head_out (c : Dev nD) : FVec Ideal ⟨2, ![512, 128]⟩ .f32 :=
  affine (M := 512) (K := 128) (N := 128)
    (relu (affine (M := 512) (K := 256) (N := 128) (V c main_v51) (V c main_arg9) (rowOf (V c main_v54))))
    (V c main_v52) (rowOf (V c main_v55))

/-- The launch has one point, and at it every window's block index is zero on both axes. -/
theorem head_index : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- What the one point writes back is that function, whole: each block is its whole array. -/
theorem head_flushed (c : Dev nD) (t : Fin cfg3.N) :
    (dat3 (F := Ideal) V c).flushed 5 t = ((cfg3.win 5).blk t).view.read (Elt Ideal) (head_out V c) := by
  show (cfg3.win 5).cut (grid3.coords t) ((dat3 V c).after 5 t) = _
  rw [after3_5]
  unfold out3_5
  rw [View.canon_unit_zero zero_offsets]
  simp only [View.ld_unit_zero (S := S512x256) zero_offsets, View.ld_unit_zero (S := S128x256) zero_offsets,
    View.ld_unit_zero (S := S1x128) zero_offsets, View.ld_unit_zero (S := S128x128) zero_offsets]
  rw [head_body]
  obtain ⟨e00, e01, e10, e11, e20, e21, e30, e31, e40, e41, e50, e51⟩ := head_index t
  funext y
  obtain ⟨g, q, rfl⟩ : ∃ (g : Fin 512) (q : Fin 128), y = ix2 g q := ⟨y 0, y 1, eq_ix2 y⟩
  have hE : ((cfg3.win 5).blk t).view.emb (ix2 g q) = ix2 g q := by
    funext ax; apply Fin.ext
    match ax with
    | ⟨0, _⟩ => show win3_5.index t (0 : Fin 2) * 512 + 1 * g.val = g.val; omega
    | ⟨1, _⟩ => show win3_5.index t (1 : Fin 2) * 128 + 1 * q.val = q.val; omega
  show affine (M := 512) (K := 128) (N := 128)
      (relu (affine (M := 512) (K := 256) (N := 128) (iblk3 V c 0 t) (iblk3 V c 1 t) (rowOf (iblk3 V c 2 t))))
      (iblk3 V c 3 t) (rowOf (iblk3 V c 4 t)) (ix2 g q)
    = head_out V c (((cfg3.win 5).blk t).view.emb (ix2 g q))
  rw [hE]
  refine affine_congr _ _ _ _ _ _ g g q q (fun k => ?_) (fun k => ?_) ?_
  · rw [relu_apply, relu_apply]
    refine congrArg (max · zero32) (affine_congr _ _ _ _ _ _ g g k k (fun l => ?_) (fun l => ?_) ?_)
    · show V c main_v51 (((cfg3.win 0).blk t).view.emb (ix2 g l)) = V c main_v51 (ix2 g l)
      refine congrArg (V c main_v51) ?_
      funext ax; apply Fin.ext
      match ax with
      | ⟨0, _⟩ => show win3_0.index t (0 : Fin 2) * 512 + 1 * g.val = g.val; omega
      | ⟨1, _⟩ => show win3_0.index t (1 : Fin 2) * 256 + 1 * l.val = l.val; omega
    · show V c main_arg9 (((cfg3.win 1).blk t).view.emb (ix2 k l)) = V c main_arg9 (ix2 k l)
      refine congrArg (V c main_arg9) ?_
      funext ax; apply Fin.ext
      match ax with
      | ⟨0, _⟩ => show win3_1.index t (0 : Fin 2) * 128 + 1 * k.val = k.val; omega
      | ⟨1, _⟩ => show win3_1.index t (1 : Fin 2) * 256 + 1 * l.val = l.val; omega
    · show V c main_v54 (((cfg3.win 2).blk t).view.emb (ix2 (0 : Fin 1) k)) = V c main_v54 (ix2 (0 : Fin 1) k)
      refine congrArg (V c main_v54) ?_
      funext ax; apply Fin.ext
      match ax with
      | ⟨0, _⟩ => show win3_2.index t (0 : Fin 2) * 1 + 1 * 0 = 0; omega
      | ⟨1, _⟩ => show win3_2.index t (1 : Fin 2) * 128 + 1 * k.val = k.val; omega
  · show V c main_v52 (((cfg3.win 3).blk t).view.emb (ix2 q k)) = V c main_v52 (ix2 q k)
    refine congrArg (V c main_v52) ?_
    funext ax; apply Fin.ext
    match ax with
    | ⟨0, _⟩ => show win3_3.index t (0 : Fin 2) * 128 + 1 * q.val = q.val; omega
    | ⟨1, _⟩ => show win3_3.index t (1 : Fin 2) * 128 + 1 * k.val = k.val; omega
  · show V c main_v55 (((cfg3.win 4).blk t).view.emb (ix2 (0 : Fin 1) q)) = V c main_v55 (ix2 (0 : Fin 1) q)
    refine congrArg (V c main_v55) ?_
    funext ax; apply Fin.ext
    match ax with
    | ⟨0, _⟩ => show win3_4.index t (0 : Fin 2) * 1 + 1 * 0 = 0; omega
    | ⟨1, _⟩ => show win3_4.index t (1 : Fin 2) * 128 + 1 * q.val = q.val; omega

/-- Every index of the output array is in the one block. -/
theorem head_cover (i : S512x128.Idx) :
    ∃ t : Fin cfg3.N, (cfg3.win 5).flush t = true ∧ i ∈ ((cfg3.win 5).blk t).view.set := by
  have hi0 : (i 0).val < 512 := (i 0).isLt
  have hi1 : (i 1).val < 128 := (i 1).isLt
  obtain ⟨e00, e01, e10, e11, e20, e21, e30, e31, e40, e41, e50, e51⟩ := head_index t3_0
  refine ⟨t3_0, flush3_5 t3_0, ?_⟩
  show i ∈ ((View.whole main_v56).slice (win3_5.rect t3_0)).set
  rw [View.set_slice_whole, Rect.mem_set_unit]
  intro ax
  match ax with
  | ⟨0, _⟩ => show win3_5.index t3_0 (0 : Fin 2) * 512 ≤ (i 0).val ∧ (i 0).val < win3_5.index t3_0 (0 : Fin 2) * 512 + 512; omega
  | ⟨1, _⟩ => show win3_5.index t3_0 (1 : Fin 2) * 128 ≤ (i 1).val ∧ (i 1).val < win3_5.index t3_0 (1 : Fin 2) * 128 + 128; omega

/-- The output array after the head's launch. -/
theorem head_array (c : Dev nD) : (dat3 (F := Ideal) V c).arrAt 5 cfg3.N = head_out V c :=
  (dat3 (F := Ideal) V c).arrAt_eq_of_cover 5 (head_out V c) (fun t _ => head_flushed V c t) (head_cover)

end Cert.KernelIdeal.Regions

end
-- ==== Proof.KernelFoldLayers.lean ====
/-
  The kernel program's buffers, walked through its three graph layers.

  Between launches the program computes on the host exactly what the reference computes: the source and destination
  node of every edge (two rows of the edge array, a negative index wrapped once), the gather of the source nodes'
  features and their scatter-add into the destination nodes.  Those host operations are the same operations on both
  sides, so whenever the kernel's layer input is the reference's layer input, the neighbourhood sums are the
  reference's too — no gather or scatter is ever opened.  A launch then leaves the rectified affine map of its inputs
  in its output array, which is what the reference's dot_general, bias and rectifier compute.  By induction over the
  three layers the kernel's layer outputs are the reference's stage values of the launch arrays.

  Buffers nobody writes (the argument arrays, the edge endpoints) are carried from boundary to boundary unchanged.
-/
import proofs.«125185_j71528385348099_1_alg».proof.Proof.Gen.KernelIdeal.Frame
import proofs.«125185_j71528385348099_1_alg».proof.Proof.Gen.ReferenceIdeal.Read
import proofs.«125185_j71528385348099_1_alg».proof.Proof.RefLayers
import proofs.«125185_j71528385348099_1_alg».proof.Proof.KernelRegions
import Idealize.ShloMosaic.Lib.KernelVsHost

set_option maxRecDepth 16384

noncomputable section

namespace Cert.KernelIdeal.Fold

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)
open Cert.ReferenceIdeal.Read (val_main_v1 val_main_v3 val_main_v13 val_main_v20 val_main_v34 val_main_v41 val_main_v55 val_main_v62 val_main_v74 val_main_v80 val_main_v85)

variable (m : (ℓ : Loc nD τ sig) → Buf (Elt Ideal) ℓ) (ρ : Dev nD → PrngReg) (c : Dev nD)

/-! ## Buffers carried unchanged -/

/-- The edges' source nodes. -/
theorem at1_v1 : W1 (F := Ideal) m ρ c (Proc.devRef .tc main_v1) = val_main_v1 (F := Ideal) (m ((c : Thread nD τ).loc main_arg1)) := by
  show StableHlo.after hostOps0 (W0 m ρ c) (Proc.devRef .tc main_v1) = _
  after_results
  rfl
theorem at2_v1 : W2 (F := Ideal) m ρ c (Proc.devRef .tc main_v1) = val_main_v1 (F := Ideal) (m ((c : Thread nD τ).loc main_arg1)) :=
  (W2_of_ne m ρ c main_v1 (by decide)).trans (at1_v1 m ρ c)
theorem at3_v1 : W3 (F := Ideal) m ρ c (Proc.devRef .tc main_v1) = val_main_v1 (F := Ideal) (m ((c : Thread nD τ).loc main_arg1)) := by
  show StableHlo.after hostOps1 (W2 m ρ c) (Proc.devRef .tc main_v1) = _
  after_results
  exact at2_v1 m ρ c
theorem at4_v1 : W4 (F := Ideal) m ρ c (Proc.devRef .tc main_v1) = val_main_v1 (F := Ideal) (m ((c : Thread nD τ).loc main_arg1)) :=
  (W4_of_ne m ρ c main_v1 (by decide)).trans (at3_v1 m ρ c)
/-- The edges' destination nodes. -/
theorem at1_v3 : W1 (F := Ideal) m ρ c (Proc.devRef .tc main_v3) = val_main_v3 (F := Ideal) (m ((c : Thread nD τ).loc main_arg1)) := by
  show StableHlo.after hostOps0 (W0 m ρ c) (Proc.devRef .tc main_v3) = _
  after_results
  rfl
theorem at2_v3 : W2 (F := Ideal) m ρ c (Proc.devRef .tc main_v3) = val_main_v3 (F := Ideal) (m ((c : Thread nD τ).loc main_arg1)) :=
  (W2_of_ne m ρ c main_v3 (by decide)).trans (at1_v3 m ρ c)
theorem at3_v3 : W3 (F := Ideal) m ρ c (Proc.devRef .tc main_v3) = val_main_v3 (F := Ideal) (m ((c : Thread nD τ).loc main_arg1)) := by
  show StableHlo.after hostOps1 (W2 m ρ c) (Proc.devRef .tc main_v3) = _
  after_results
  exact at2_v3 m ρ c
theorem at4_v3 : W4 (F := Ideal) m ρ c (Proc.devRef .tc main_v3) = val_main_v3 (F := Ideal) (m ((c : Thread nD τ).loc main_arg1)) :=
  (W4_of_ne m ρ c main_v3 (by decide)).trans (at3_v3 m ρ c)
theorem at1_arg5 : W1 (F := Ideal) m ρ c (Proc.devRef .tc main_arg5) = (m ((c : Thread nD τ).loc main_arg5)) := by
  show StableHlo.after hostOps0 (W0 m ρ c) (Proc.devRef .tc main_arg5) = _
  after_results
theorem at2_arg5 : W2 (F := Ideal) m ρ c (Proc.devRef .tc main_arg5) = (m ((c : Thread nD τ).loc main_arg5)) :=
  (W2_of_ne m ρ c main_arg5 (by decide)).trans (at1_arg5 m ρ c)
theorem at1_arg6 : W1 (F := Ideal) m ρ c (Proc.devRef .tc main_arg6) = (m ((c : Thread nD τ).loc main_arg6)) := by
  show StableHlo.after hostOps0 (W0 m ρ c) (Proc.devRef .tc main_arg6) = _
  after_results
theorem at2_arg6 : W2 (F := Ideal) m ρ c (Proc.devRef .tc main_arg6) = (m ((c : Thread nD τ).loc main_arg6)) :=
  (W2_of_ne m ρ c main_arg6 (by decide)).trans (at1_arg6 m ρ c)
theorem at1_arg7 : W1 (F := Ideal) m ρ c (Proc.devRef .tc main_arg7) = (m ((c : Thread nD τ).loc main_arg7)) := by
  show StableHlo.after hostOps0 (W0 m ρ c) (Proc.devRef .tc main_arg7) = _
  after_results
theorem at2_arg7 : W2 (F := Ideal) m ρ c (Proc.devRef .tc main_arg7) = (m ((c : Thread nD τ).loc main_arg7)) :=
  (W2_of_ne m ρ c main_arg7 (by decide)).trans (at1_arg7 m ρ c)
theorem at3_arg7 : W3 (F := Ideal) m ρ c (Proc.devRef .tc main_arg7) = (m ((c : Thread nD τ).loc main_arg7)) := by
  show StableHlo.after hostOps1 (W2 m ρ c) (Proc.devRef .tc main_arg7) = _
  after_results
  exact at2_arg7 m ρ c
theorem at4_arg7 : W4 (F := Ideal) m ρ c (Proc.devRef .tc main_arg7) = (m ((c : Thread nD τ).loc main_arg7)) :=
  (W4_of_ne m ρ c main_arg7 (by decide)).trans (at3_arg7 m ρ c)
theorem at1_arg8 : W1 (F := Ideal) m ρ c (Proc.devRef .tc main_arg8) = (m ((c : Thread nD τ).loc main_arg8)) := by
  show StableHlo.after hostOps0 (W0 m ρ c) (Proc.devRef .tc main_arg8) = _
  after_results
theorem at2_arg8 : W2 (F := Ideal) m ρ c (Proc.devRef .tc main_arg8) = (m ((c : Thread nD τ).loc main_arg8)) :=
  (W2_of_ne m ρ c main_arg8 (by decide)).trans (at1_arg8 m ρ c)
theorem at3_arg8 : W3 (F := Ideal) m ρ c (Proc.devRef .tc main_arg8) = (m ((c : Thread nD τ).loc main_arg8)) := by
  show StableHlo.after hostOps1 (W2 m ρ c) (Proc.devRef .tc main_arg8) = _
  after_results
  exact at2_arg8 m ρ c
theorem at4_arg8 : W4 (F := Ideal) m ρ c (Proc.devRef .tc main_arg8) = (m ((c : Thread nD τ).loc main_arg8)) :=
  (W4_of_ne m ρ c main_arg8 (by decide)).trans (at3_arg8 m ρ c)

/-! ## A graph layer's two spellings meet -/

/-- A [256] vector cast to one [1, 256] row and read back as a row's entries is the vector. -/
theorem rowOf_cast256 (b : FVec Ideal ⟨1, ![256]⟩ .f32) (h : (⟨1, ![256]⟩ : Shape).ShapeCasts ⟨2, ![1, 256]⟩) :
    Cert.KernelIdeal.Payloads.rowOf (shapeCast ⟨2, ![1, 256]⟩ b h) = b := by
  funext i
  obtain ⟨q, rfl⟩ : ∃ q : Fin 256, i = ix1 q := ⟨i 0, eq_ix1 i⟩
  exact shapeCast_a_1a_apply b h (0 : Fin 1) q

/-- Equal inputs give equal layer outputs. -/
theorem layer_congr {K : Nat} {h h' a a' : FVec Ideal ⟨2, ![50000, K]⟩ .f32} {W W' : FVec Ideal ⟨2, ![256, K]⟩ .f32}
    {b b' : FVec Ideal ⟨1, ![256]⟩ .f32} (eh : h = h') (ea : a = a') (eW : W = W') (eb : b = b') :
    relu (affine (addf h a) W b) = relu (affine (addf h' a') W' b') := by
  subst eh ea eW eb; rfl

/-! ## First layer -/

theorem at1_arg0 : W1 (F := Ideal) m ρ c (Proc.devRef .tc main_arg0) = (m ((c : Thread nD τ).loc main_arg0)) := by
  show StableHlo.after hostOps0 (W0 m ρ c) (Proc.devRef .tc main_arg0) = _
  after_results
theorem at1_arg3 : W1 (F := Ideal) m ρ c (Proc.devRef .tc main_arg3) = (m ((c : Thread nD τ).loc main_arg3)) := by
  show StableHlo.after hostOps0 (W0 m ρ c) (Proc.devRef .tc main_arg3) = _
  after_results
theorem at1_v14 : W1 (F := Ideal) m ρ c (Proc.devRef .tc main_v14) = shapeCast S1x256 (m ((c : Thread nD τ).loc main_arg4)) shapeCasts_S256_S1x256 := by
  show StableHlo.after hostOps0 (W0 m ρ c) (Proc.devRef .tc main_v14) = _
  after_results
  rfl

set_option maxHeartbeats 4000000 in
set_option maxRecDepth 65536 in
/-- The first layer's neighbourhood sums are the reference's. -/
theorem at1_v13 : W1 (F := Ideal) m ρ c (Proc.devRef .tc main_v13) = val_main_v13 (F := Ideal) (m ((c : Thread nD τ).loc main_arg0)) (m ((c : Thread nD τ).loc main_arg1)) := by
  show StableHlo.after hostOps0 (W0 m ρ c) (Proc.devRef .tc main_v13) = _
  after_results_simp
  rfl

/-- After the first launch its output array holds the reference's first layer. -/
theorem at2_v15 : W2 (F := Ideal) m ρ c (Proc.devRef .tc main_v15) = val_main_v20 (F := Ideal) (m ((c : Thread nD τ).loc main_arg0)) (m ((c : Thread nD τ).loc main_arg1)) (m ((c : Thread nD τ).loc main_arg3)) (m ((c : Thread nD τ).loc main_arg4)) :=
  (W2_arr m ρ c 4).trans ((Cert.KernelIdeal.Regions.layer1_array (V1 m ρ) c).trans
    ((layer_congr (at1_arg0 m ρ c) (at1_v13 m ρ c) (at1_arg3 m ρ c)
        ((congrArg Cert.KernelIdeal.Payloads.rowOf (at1_v14 m ρ c)).trans (rowOf_cast256 _ _))).trans
      (Cert.ReferenceIdeal.Layers.layer1 _ _ _ _).symm))

/-! ## Second layer -/

theorem at3_v15 : W3 (F := Ideal) m ρ c (Proc.devRef .tc main_v15) = val_main_v20 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v15) = _
  after_results
  exact at2_v15 m ρ c
theorem at3_arg5 : W3 (F := Ideal) m ρ c (Proc.devRef .tc main_arg5) = (m ((c : Thread nD τ).loc main_arg5)) := by
  show StableHlo.after hostOps1 (W2 m ρ c) (Proc.devRef .tc main_arg5) = _
  after_results
  exact at2_arg5 m ρ c
theorem at3_v26 : W3 (F := Ideal) m ρ c (Proc.devRef .tc main_v26) = shapeCast S1x256 (m ((c : Thread nD τ).loc main_arg6)) shapeCasts_S256_S1x256 := by
  show StableHlo.after hostOps1 (W2 m ρ c) (Proc.devRef .tc main_v26) = _
  after_results
  rw [at2_arg6 m ρ c]
  rfl

set_option maxHeartbeats 4000000 in
set_option maxRecDepth 65536 in
/-- The second layer's neighbourhood sums, of the first layer's output, are the reference's. -/
theorem at3_v25 : W3 (F := Ideal) m ρ c (Proc.devRef .tc main_v25) = val_main_v34 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v25) = _
  after_results_simp
  rw [at2_v15 m ρ c, at2_v1 m ρ c, at2_v3 m ρ c]
  rfl

/-- After the second launch its output array holds the reference's second layer. -/
theorem at4_v27 : W4 (F := Ideal) m ρ c (Proc.devRef .tc main_v27)
    = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W4_arr m ρ c 4).trans ((Cert.KernelIdeal.Regions.layer2_array (V3 m ρ) c).trans
    ((layer_congr (at3_v15 m ρ c) (at3_v25 m ρ c) (at3_arg5 m ρ c)
        ((congrArg Cert.KernelIdeal.Payloads.rowOf (at3_v26 m ρ c)).trans (rowOf_cast256 _ _))).trans
      (Cert.ReferenceIdeal.Layers.layer2 _ _ _ _ _ _).symm))

/-! ## Third layer -/

theorem at5_v27 : W5 (F := Ideal) m ρ c (Proc.devRef .tc main_v27)
    = val_main_v41 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v27) = _
  after_results
  exact at4_v27 m ρ c
theorem at5_arg7 : W5 (F := Ideal) m ρ c (Proc.devRef .tc main_arg7) = (m ((c : Thread nD τ).loc main_arg7)) := by
  show StableHlo.after hostOps2 (W4 m ρ c) (Proc.devRef .tc main_arg7) = _
  after_results
  exact at4_arg7 m ρ c
theorem at5_v38 : W5 (F := Ideal) m ρ c (Proc.devRef .tc main_v38) = shapeCast S1x256 (m ((c : Thread nD τ).loc main_arg8)) shapeCasts_S256_S1x256 := by
  show StableHlo.after hostOps2 (W4 m ρ c) (Proc.devRef .tc main_v38) = _
  after_results
  rw [at4_arg8 m ρ c]
  rfl

set_option maxHeartbeats 4000000 in
set_option maxRecDepth 65536 in
/-- The third layer's neighbourhood sums, of the second layer's output, are the reference's. -/
theorem at5_v37 : W5 (F := Ideal) m ρ c (Proc.devRef .tc main_v37)
    = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v37) = _
  after_results_simp
  rw [at4_v27 m ρ c, at4_v1 m ρ c, at4_v3 m ρ c]
  rfl

/-- After the third launch its output array holds the reference's third layer. -/
theorem at6_v39 : W6 (F := Ideal) m ρ c (Proc.devRef .tc main_v39)
    = val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 4).trans ((Cert.KernelIdeal.Regions.layer3_array (V5 m ρ) c).trans
    ((layer_congr (at5_v27 m ρ c) (at5_v37 m ρ c) (at5_arg7 m ρ c)
        ((congrArg Cert.KernelIdeal.Payloads.rowOf (at5_v38 m ρ c)).trans (rowOf_cast256 _ _))).trans
      (Cert.ReferenceIdeal.Layers.layer3 _ _ _ _ _ _ _ _).symm))

end Cert.KernelIdeal.Fold

end
-- ==== Proof.KernelFoldHead.lean ====
/-
  The kernel program's buffers, from the third graph layer to the result.

  After the last graph layer both programs pool the node features per graph on the host — a scatter-add of the rows,
  divided by the node counts (at least one) — by the same operations, so the pooled features agree.  The kernel then
  pads the output layer's weights from 10 to 128 rows and its bias from 10 to 128 entries with zeros, runs the head
  as one launch on 128 output columns, and keeps the first 10 columns.  An output column q < 10 of an affine map reads
  row q of the weights and entry q of the bias only, and a pad read inside the original extent is the original: so
  the kept columns are the reference's affine map with the unpadded weights.  The padded rows are never read.
-/
import proofs.«125185_j71528385348099_1_alg».proof.Proof.KernelFoldLayers

set_option maxRecDepth 16384

noncomputable section

namespace Cert.KernelIdeal.Fold

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)
open Cert.ReferenceIdeal.Read (val_main_v1 val_main_v3 val_main_v13 val_main_v20 val_main_v34 val_main_v41 val_main_v55 val_main_v62 val_main_v74 val_main_v80 val_main_v85)

variable (m : (ℓ : Loc nD τ sig) → Buf (Elt Ideal) ℓ) (ρ : Dev nD → PrngReg) (c : Dev nD)

/-! ## Buffers carried unchanged up to the third launch's exit -/

theorem at1_arg2 : W1 (F := Ideal) m ρ c (Proc.devRef .tc main_arg2) = (m ((c : Thread nD τ).loc main_arg2)) := by
  show StableHlo.after hostOps0 (W0 m ρ c) (Proc.devRef .tc main_arg2) = _
  after_results
theorem at2_arg2 : W2 (F := Ideal) m ρ c (Proc.devRef .tc main_arg2) = (m ((c : Thread nD τ).loc main_arg2)) :=
  (W2_of_ne m ρ c main_arg2 (by decide)).trans (at1_arg2 m ρ c)
theorem at3_arg2 : W3 (F := Ideal) m ρ c (Proc.devRef .tc main_arg2) = (m ((c : Thread nD τ).loc main_arg2)) := by
  show StableHlo.after hostOps1 (W2 m ρ c) (Proc.devRef .tc main_arg2) = _
  after_results
  exact at2_arg2 m ρ c
theorem at4_arg2 : W4 (F := Ideal) m ρ c (Proc.devRef .tc main_arg2) = (m ((c : Thread nD τ).loc main_arg2)) :=
  (W4_of_ne m ρ c main_arg2 (by decide)).trans (at3_arg2 m ρ c)
theorem at5_arg2 : W5 (F := Ideal) m ρ c (Proc.devRef .tc main_arg2) = (m ((c : Thread nD τ).loc main_arg2)) := by
  show StableHlo.after hostOps2 (W4 m ρ c) (Proc.devRef .tc main_arg2) = _
  after_results
  exact at4_arg2 m ρ c
theorem at6_arg2 : W6 (F := Ideal) m ρ c (Proc.devRef .tc main_arg2) = (m ((c : Thread nD τ).loc main_arg2)) :=
  (W6_of_ne m ρ c main_arg2 (by decide)).trans (at5_arg2 m ρ c)
theorem at1_arg9 : W1 (F := Ideal) m ρ c (Proc.devRef .tc main_arg9) = (m ((c : Thread nD τ).loc main_arg9)) := by
  show StableHlo.after hostOps0 (W0 m ρ c) (Proc.devRef .tc main_arg9) = _
  after_results
theorem at2_arg9 : W2 (F := Ideal) m ρ c (Proc.devRef .tc main_arg9) = (m ((c : Thread nD τ).loc main_arg9)) :=
  (W2_of_ne m ρ c main_arg9 (by decide)).trans (at1_arg9 m ρ c)
theorem at3_arg9 : W3 (F := Ideal) m ρ c (Proc.devRef .tc main_arg9) = (m ((c : Thread nD τ).loc main_arg9)) := by
  show StableHlo.after hostOps1 (W2 m ρ c) (Proc.devRef .tc main_arg9) = _
  after_results
  exact at2_arg9 m ρ c
theorem at4_arg9 : W4 (F := Ideal) m ρ c (Proc.devRef .tc main_arg9) = (m ((c : Thread nD τ).loc main_arg9)) :=
  (W4_of_ne m ρ c main_arg9 (by decide)).trans (at3_arg9 m ρ c)
theorem at5_arg9 : W5 (F := Ideal) m ρ c (Proc.devRef .tc main_arg9) = (m ((c : Thread nD τ).loc main_arg9)) := by
  show StableHlo.after hostOps2 (W4 m ρ c) (Proc.devRef .tc main_arg9) = _
  after_results
  exact at4_arg9 m ρ c
theorem at6_arg9 : W6 (F := Ideal) m ρ c (Proc.devRef .tc main_arg9) = (m ((c : Thread nD τ).loc main_arg9)) :=
  (W6_of_ne m ρ c main_arg9 (by decide)).trans (at5_arg9 m ρ c)
theorem at1_arg10 : W1 (F := Ideal) m ρ c (Proc.devRef .tc main_arg10) = (m ((c : Thread nD τ).loc main_arg10)) := by
  show StableHlo.after hostOps0 (W0 m ρ c) (Proc.devRef .tc main_arg10) = _
  after_results
theorem at2_arg10 : W2 (F := Ideal) m ρ c (Proc.devRef .tc main_arg10) = (m ((c : Thread nD τ).loc main_arg10)) :=
  (W2_of_ne m ρ c main_arg10 (by decide)).trans (at1_arg10 m ρ c)
theorem at3_arg10 : W3 (F := Ideal) m ρ c (Proc.devRef .tc main_arg10) = (m ((c : Thread nD τ).loc main_arg10)) := by
  show StableHlo.after hostOps1 (W2 m ρ c) (Proc.devRef .tc main_arg10) = _
  after_results
  exact at2_arg10 m ρ c
theorem at4_arg10 : W4 (F := Ideal) m ρ c (Proc.devRef .tc main_arg10) = (m ((c : Thread nD τ).loc main_arg10)) :=
  (W4_of_ne m ρ c main_arg10 (by decide)).trans (at3_arg10 m ρ c)
theorem at5_arg10 : W5 (F := Ideal) m ρ c (Proc.devRef .tc main_arg10) = (m ((c : Thread nD τ).loc main_arg10)) := by
  show StableHlo.after hostOps2 (W4 m ρ c) (Proc.devRef .tc main_arg10) = _
  after_results
  exact at4_arg10 m ρ c
theorem at6_arg10 : W6 (F := Ideal) m ρ c (Proc.devRef .tc main_arg10) = (m ((c : Thread nD τ).loc main_arg10)) :=
  (W6_of_ne m ρ c main_arg10 (by decide)).trans (at5_arg10 m ρ c)
theorem at1_arg11 : W1 (F := Ideal) m ρ c (Proc.devRef .tc main_arg11) = (m ((c : Thread nD τ).loc main_arg11)) := by
  show StableHlo.after hostOps0 (W0 m ρ c) (Proc.devRef .tc main_arg11) = _
  after_results
theorem at2_arg11 : W2 (F := Ideal) m ρ c (Proc.devRef .tc main_arg11) = (m ((c : Thread nD τ).loc main_arg11)) :=
  (W2_of_ne m ρ c main_arg11 (by decide)).trans (at1_arg11 m ρ c)
theorem at3_arg11 : W3 (F := Ideal) m ρ c (Proc.devRef .tc main_arg11) = (m ((c : Thread nD τ).loc main_arg11)) := by
  show StableHlo.after hostOps1 (W2 m ρ c) (Proc.devRef .tc main_arg11) = _
  after_results
  exact at2_arg11 m ρ c
theorem at4_arg11 : W4 (F := Ideal) m ρ c (Proc.devRef .tc main_arg11) = (m ((c : Thread nD τ).loc main_arg11)) :=
  (W4_of_ne m ρ c main_arg11 (by decide)).trans (at3_arg11 m ρ c)
theorem at5_arg11 : W5 (F := Ideal) m ρ c (Proc.devRef .tc main_arg11) = (m ((c : Thread nD τ).loc main_arg11)) := by
  show StableHlo.after hostOps2 (W4 m ρ c) (Proc.devRef .tc main_arg11) = _
  after_results
  exact at4_arg11 m ρ c
theorem at6_arg11 : W6 (F := Ideal) m ρ c (Proc.devRef .tc main_arg11) = (m ((c : Thread nD τ).loc main_arg11)) :=
  (W6_of_ne m ρ c main_arg11 (by decide)).trans (at5_arg11 m ρ c)
theorem at1_arg12 : W1 (F := Ideal) m ρ c (Proc.devRef .tc main_arg12) = (m ((c : Thread nD τ).loc main_arg12)) := by
  show StableHlo.after hostOps0 (W0 m ρ c) (Proc.devRef .tc main_arg12) = _
  after_results
theorem at2_arg12 : W2 (F := Ideal) m ρ c (Proc.devRef .tc main_arg12) = (m ((c : Thread nD τ).loc main_arg12)) :=
  (W2_of_ne m ρ c main_arg12 (by decide)).trans (at1_arg12 m ρ c)
theorem at3_arg12 : W3 (F := Ideal) m ρ c (Proc.devRef .tc main_arg12) = (m ((c : Thread nD τ).loc main_arg12)) := by
  show StableHlo.after hostOps1 (W2 m ρ c) (Proc.devRef .tc main_arg12) = _
  after_results
  exact at2_arg12 m ρ c
theorem at4_arg12 : W4 (F := Ideal) m ρ c (Proc.devRef .tc main_arg12) = (m ((c : Thread nD τ).loc main_arg12)) :=
  (W4_of_ne m ρ c main_arg12 (by decide)).trans (at3_arg12 m ρ c)
theorem at5_arg12 : W5 (F := Ideal) m ρ c (Proc.devRef .tc main_arg12) = (m ((c : Thread nD τ).loc main_arg12)) := by
  show StableHlo.after hostOps2 (W4 m ρ c) (Proc.devRef .tc main_arg12) = _
  after_results
  exact at4_arg12 m ρ c
theorem at6_arg12 : W6 (F := Ideal) m ρ c (Proc.devRef .tc main_arg12) = (m ((c : Thread nD τ).loc main_arg12)) :=
  (W6_of_ne m ρ c main_arg12 (by decide)).trans (at5_arg12 m ρ c)

/-! ## What the head's launch finds: pooled features, padded output layer -/

set_option maxHeartbeats 4000000 in
set_option maxRecDepth 65536 in
/-- The pooled features, of the third layer's output, are the reference's. -/
theorem at11_v51 : W11 (F := Ideal) m ρ c (Proc.devRef .tc main_v51) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3_4 (W10 m ρ c) (Proc.devRef .tc main_v51) = _
  after_results_simp
  rw [at6_v39 m ρ c, at6_arg2 m ρ c]
  rfl

set_option maxHeartbeats 4000000 in
set_option maxRecDepth 65536 in
theorem at11_arg9 : W11 (F := Ideal) m ρ c (Proc.devRef .tc main_arg9) = (m ((c : Thread nD τ).loc main_arg9)) := by
  show StableHlo.after hostOps3_4 (W10 m ρ c) (Proc.devRef .tc main_arg9) = _
  after_results
  exact at6_arg9 m ρ c

set_option maxHeartbeats 4000000 in
set_option maxRecDepth 65536 in
theorem at11_v54 : W11 (F := Ideal) m ρ c (Proc.devRef .tc main_v54) = shapeCast S1x128 (m ((c : Thread nD τ).loc main_arg10)) shapeCasts_S128_S1x128 := by
  show StableHlo.after hostOps3_4 (W10 m ρ c) (Proc.devRef .tc main_v54) = _
  after_results
  show shapeCast S1x128 (W6 (F := Ideal) m ρ c (Proc.devRef .tc main_arg10)) shapeCasts_S128_S1x128 = _
  rw [at6_arg10 m ρ c]

set_option maxHeartbeats 4000000 in
set_option maxRecDepth 65536 in
/-- The output layer's weights, zero rows appended below the ten. -/
theorem at11_v52 : W11 (F := Ideal) m ρ c (Proc.devRef .tc main_v52) = (pad S128x128 ![0, 0] ![118, 0] ![0, 0] (m ((c : Thread nD τ).loc main_arg11)) (sitofp (F := Ideal) .f32 (constantI S_ 32 0#32)) pads_S10x128_S128x128_01180_000 h_S_) := by
  show StableHlo.after hostOps3_4 (W10 m ρ c) (Proc.devRef .tc main_v52) = _
  after_results
  show (pad S128x128 ![0, 0] ![118, 0] ![0, 0] (W6 (F := Ideal) m ρ c (Proc.devRef .tc main_arg11)) (sitofp (F := Ideal) .f32 (constantI S_ 32 0#32)) pads_S10x128_S128x128_01180_000 h_S_) = _
  rw [at6_arg11 m ρ c]

set_option maxHeartbeats 4000000 in
set_option maxRecDepth 65536 in
/-- The output layer's bias, zeros appended after the ten, as one row. -/
theorem at11_v55 : W11 (F := Ideal) m ρ c (Proc.devRef .tc main_v55) = shapeCast S1x128 (pad S128 ![0] ![118] ![0] (m ((c : Thread nD τ).loc main_arg12)) (sitofp (F := Ideal) .f32 (constantI S_ 32 0#32)) pads_S10_S128_01180 h_S_) shapeCasts_S128_S1x128 := by
  show StableHlo.after hostOps3_4 (W10 m ρ c) (Proc.devRef .tc main_v55) = _
  after_results
  show shapeCast S1x128 (pad S128 ![0] ![118] ![0] (W6 (F := Ideal) m ρ c (Proc.devRef .tc main_arg12)) (sitofp (F := Ideal) .f32 (constantI S_ 32 0#32)) pads_S10_S128_01180 h_S_) shapeCasts_S128_S1x128 = _
  rw [at6_arg12 m ρ c]

/-! ## The head and the result -/

/-- A [128] vector cast to one [1, 128] row and read back as a row's entries is the vector. -/
theorem rowOf_cast128 (b : FVec Ideal ⟨1, ![128]⟩ .f32) (h : (⟨1, ![128]⟩ : Shape).ShapeCasts ⟨2, ![1, 128]⟩) :
    Cert.KernelIdeal.Payloads.rowOf (shapeCast ⟨2, ![1, 128]⟩ b h) = b := by
  funext i
  obtain ⟨q, rfl⟩ : ∃ q : Fin 128, i = ix1 q := ⟨i 0, eq_ix1 i⟩
  exact shapeCast_a_1a_apply b h (0 : Fin 1) q

/-- An entry of an affine map reads one weight row and one bias entry: a map with MORE output columns agrees with one
    with fewer wherever the rows and entries it reads agree. -/
theorem affine_cols {M K N N' : Nat} (lhs lhs' : FVec Ideal ⟨2, ![M, K]⟩ .f32) (W : FVec Ideal ⟨2, ![N, K]⟩ .f32)
    (W' : FVec Ideal ⟨2, ![N', K]⟩ .f32) (b : FVec Ideal ⟨1, ![N]⟩ .f32) (b' : FVec Ideal ⟨1, ![N']⟩ .f32)
    (p : Fin M) (q : Fin N) (q' : Fin N')
    (hl : ∀ k, lhs (ix2 p k) = lhs' (ix2 p k)) (hw : ∀ k, W (ix2 q k) = W' (ix2 q' k)) (hb : b (ix1 q) = b' (ix1 q')) :
    affine lhs W b (ix2 p q) = affine lhs' W' b' (ix2 p q') := by
  rw [affine_apply, affine_apply, hb]
  exact congrArg (· + b' (ix1 q')) (Finset.sum_congr rfl fun k _ => by rw [hl k, hw k])

/-- The head's hidden layer in the kernel is the reference's. -/
theorem hidden_eq :
    relu (affine (M := 512) (K := 256) (N := 128) (W11 (F := Ideal) m ρ c (Proc.devRef .tc main_v51))
        (W11 (F := Ideal) m ρ c (Proc.devRef .tc main_arg9))
        (Cert.KernelIdeal.Payloads.rowOf (W11 (F := Ideal) m ρ c (Proc.devRef .tc main_v54))))
      = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [at11_v51 m ρ c, at11_arg9 m ρ c, at11_v54 m ρ c, rowOf_cast128]
  exact (Cert.ReferenceIdeal.Layers.head1 _ _ _ _ _ _ _ _ _ _ _).symm

/-- THE KERNEL'S RESULT: the first ten columns of the head's output are the reference's output layer. -/
theorem result_value : W13 (F := Ideal) m ρ c (Proc.devRef .tc main_v57) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have hslice : W13 (F := Ideal) m ρ c (Proc.devRef .tc main_v57)
      = extractStridedSlice S512x10 ![0, 0] (W12 (F := Ideal) m ρ c (Proc.devRef .tc main_v56)) slices_S512x128_S512x10_0_0 := by
    show StableHlo.after hostOps4 (W12 m ρ c) (Proc.devRef .tc main_v57) = _
    after_results
  have hhead : W12 (F := Ideal) m ρ c (Proc.devRef .tc main_v56) = Cert.KernelIdeal.Regions.head_out (V11 m ρ) c :=
    (W12_arr m ρ c 5).trans (Cert.KernelIdeal.Regions.head_array (V11 m ρ) c)
  rw [hslice, hhead, Cert.ReferenceIdeal.Layers.head2]
  funext i
  obtain ⟨g, q, rfl⟩ : ∃ (g : Fin 512) (q : Fin 10), i = ix2 g q := ⟨i 0, i 1, eq_ix2 i⟩
  have hq : q.val < 128 := by have := q.isLt; omega
  rw [extractStridedSlice_apply ![0, 0] _ slices_S512x128_S512x10_0_0 (ix2 g q) (ix2 g (⟨q.val, hq⟩ : Fin 128)) (fun a => match a with
    | ⟨0, _⟩ => by show g.val = 0 + g.val; omega
    | ⟨1, _⟩ => by show q.val = 0 + q.val; omega)]
  refine affine_cols _ _ _ _ _ _ g (⟨q.val, hq⟩ : Fin 128) q (fun k => congrFun (hidden_eq m ρ c) (ix2 g k)) (fun k => ?_) ?_
  · show W11 (F := Ideal) m ρ c (Proc.devRef .tc main_v52) (ix2 (⟨q.val, hq⟩ : Fin 128) k) = (m ((c : Thread nD τ).loc main_arg11)) (ix2 q k)
    rw [at11_v52 m ρ c]
    exact pad_apply_of_inside ![0, 0] ![118, 0] ![0, 0] _ _ pads_S10x128_S128x128_01180_000 h_S_ (ix2 (⟨q.val, hq⟩ : Fin 128) k) (ix2 q k) (fun a => match a with
      | ⟨0, _⟩ => by show q.val = 0 + q.val * (0 + 1); omega
      | ⟨1, _⟩ => by show k.val = 0 + k.val * (0 + 1); omega)
  · show Cert.KernelIdeal.Payloads.rowOf (W11 (F := Ideal) m ρ c (Proc.devRef .tc main_v55)) (ix1 (⟨q.val, hq⟩ : Fin 128)) = (m ((c : Thread nD τ).loc main_arg12)) (ix1 q)
    rw [at11_v55 m ρ c, rowOf_cast128]
    exact pad_apply_of_inside ![0] ![118] ![0] _ _ pads_S10_S128_01180 h_S_ (ix1 (⟨q.val, hq⟩ : Fin 128)) (ix1 q) (fun a => match a with
      | ⟨0, _⟩ => by show q.val = 0 + q.val * (0 + 1); omega)

end Cert.KernelIdeal.Fold

end
-- ==== Proof.lean ====
/-
  Three rounds of graph-neighbourhood aggregation, per-graph mean pooling and a two-layer head, computed two ways.

  One program runs each dense step as a launched kernel: it adds the node features and their neighbourhood sums,
  multiplies by the transposed weights on the matrix unit after a change of float format, adds the bias and rectifies,
  ten row blocks at a time; its head pads the ten output rows of the last weight matrix to 128 with zeros, computes
  128 output columns and keeps the first ten.  The other program is plain array code: dot_general, broadcasts,
  maximum.  The edge gathers, the scatter-adds and the pooling are the same host operations in both.

  At the exact values a change of float format is the identity and a row-by-column product is one finite sum whatever
  unit computes it, so each launch leaves in its output array what the reference's dense step computes; the shared
  host operations then see equal inputs, layer after layer; and a kept output column of the padded head reads only
  unpadded weights.  The two results are equal element by element, for every input.  No finiteness is used: nothing is re-associated
  or distributed, each side computes the same sums of the same products.

  The frames of the two kernel programs are the generated ones; the reference's is its run with the result dropped.
  The idealization rewrote nothing, so it has nothing to preserve.
-/
import proofs.«125185_j71528385348099_1_alg».proof.Defs
import proofs.«125185_j71528385348099_1_alg».proof.Proof.Gen.Kernel
import proofs.«125185_j71528385348099_1_alg».proof.Proof.Gen.Kernel.Skeleton
import proofs.«125185_j71528385348099_1_alg».proof.Proof.Gen.Kernel.Launch
import proofs.«125185_j71528385348099_1_alg».proof.Proof.Gen.Kernel.Points
import proofs.«125185_j71528385348099_1_alg».proof.Proof.Gen.Kernel.Frame
import proofs.«125185_j71528385348099_1_alg».proof.Proof.Gen.KernelIdeal
import proofs.«125185_j71528385348099_1_alg».proof.Proof.Gen.KernelIdeal.Skeleton
import proofs.«125185_j71528385348099_1_alg».proof.Proof.Gen.KernelIdeal.Launch
import proofs.«125185_j71528385348099_1_alg».proof.Proof.Gen.KernelIdeal.Points
import proofs.«125185_j71528385348099_1_alg».proof.Proof.Gen.KernelIdeal.Frame
import proofs.«125185_j71528385348099_1_alg».proof.Proof.Gen.ReferenceIdeal
import proofs.«125185_j71528385348099_1_alg».proof.Proof.Gen.Pre_finite_inputs
import proofs.«125185_j71528385348099_1_alg».proof.Proof.Gen.ReferenceIdeal.Run
import proofs.«125185_j71528385348099_1_alg».proof.Proof.Gen.ReferenceIdeal.Read
import proofs.«125185_j71528385348099_1_alg».proof.Proof.KernelRun
import proofs.«125185_j71528385348099_1_alg».proof.Proof.KernelFoldHead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result buffer ends at the last fold's contents, which are the reference's last stage of the launch
    arrays; the reference's result is that stage of ITS launch arrays, which agree with the kernel's. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v57),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v85_eq, h0, h1, h2, h3, h4, h5, h6, h7, h8, h9, h10, h11, h12]
  exact (Cert.KernelIdeal.Fold.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
